-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S768x2304 : Shape := ⟨2, ![768, 2304]⟩
abbrev S1x768 : Shape := ⟨2, ![1, 768]⟩
abbrev S1x1024x768 : Shape := ⟨3, ![1, 1024, 768]⟩
abbrev S1024x2304 : Shape := ⟨2, ![1024, 2304]⟩
abbrev S1024x768 : Shape := ⟨2, ![1024, 768]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x2304, .f32⟩
  | .hbm, ⟨5, _⟩ => ⟨S768x2304, .bf16⟩
  | .hbm, ⟨6, _⟩ => ⟨S768x768, .f32⟩
  | .hbm, ⟨7, _⟩ => ⟨S768x768, .bf16⟩
  | .hbm, ⟨8, _⟩ => ⟨S1x768, .f32⟩
  | .hbm, ⟨9, _⟩ => ⟨S8x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x2304, .bf16⟩
  | .local _ .vmem, ⟨3, _⟩ => ⟨S768x768, .bf16⟩
  | .local _ .vmem, ⟨4, _⟩ => ⟨S1x768, .f32⟩
  | .local _ .vmem, ⟨5, _⟩ => ⟨S1x1024x768, .f32⟩
  | .local _ .vmem, ⟨6, _⟩ => ⟨S1x1024x768, .f32⟩
  | .local _ .vmem, ⟨7, _⟩ => ⟨S1024x2304, .bf16⟩
  | .local _ .vmem, ⟨8, _⟩ => ⟨S1024x768, .bf16⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c6_i32 : BitVec 32 := 6#32
  let v24 : BitVec 32 := Scalar.addi c0_i32 c6_i32
  let c1_i32 : BitVec 32 := 1#32
  ⟨c0_i32, v24, c1_i32⟩
def k0_mult1 (k0_t1 : Fin k0_t1_loop.trips) : BitVec 32 :=
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v36 : BitVec 32 := Scalar.muli arg8 c1_i32_25
  let v37 : BitVec 32 := Scalar.addi c0_i32_26 v36
  let c128_i32 : BitVec 32 := 128#32
  let v38 : BitVec 32 := Scalar.muli v37 c128_i32
  v38
def k0_mult2 (k0_t1 : Fin k0_t1_loop.trips) : BitVec 32 :=
  let c768_i32 : BitVec 32 := 768#32
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v36 : BitVec 32 := Scalar.muli arg8 c1_i32_25
  let v37 : BitVec 32 := Scalar.addi c0_i32_26 v36
  let c128_i32 : BitVec 32 := 128#32
  let v38 : BitVec 32 := Scalar.muli v37 c128_i32
  let v39 : BitVec 32 := v38
  let v40 : BitVec 32 := Scalar.addi c768_i32 v39
  v40
def k0_mult3 (k0_t1 : Fin k0_t1_loop.trips) : BitVec 32 :=
  let c1536_i32 : BitVec 32 := 1536#32
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v36 : BitVec 32 := Scalar.muli arg8 c1_i32_25
  let v37 : BitVec 32 := Scalar.addi c0_i32_26 v36
  let c128_i32 : BitVec 32 := 128#32
  let v38 : BitVec 32 := Scalar.muli v37 c128_i32
  let v39 : BitVec 32 := v38
  let v42 : BitVec 32 := Scalar.addi c1536_i32 v39
  v42
def k0_off1 (k0_t1 : Fin k0_t1_loop.trips) : Fin 2 → Nat :=
  let c0_27 : Index := 0#32
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v36 : BitVec 32 := Scalar.muli arg8 c1_i32_25
  let v37 : BitVec 32 := Scalar.addi c0_i32_26 v36
  let c128_i32 : BitVec 32 := 128#32
  let v38 : BitVec 32 := Scalar.muli v37 c128_i32
  let v39 : BitVec 32 := v38
  let v44 : Index := Scalar.indexCast v39
  ![0, v44.toNat]
def k0_off2 (k0_t1 : Fin k0_t1_loop.trips) (c768_i32 : BitVec 32) : Fin 2 → Nat :=
  let c0_28 : Index := 0#32
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v36 : BitVec 32 := Scalar.muli arg8 c1_i32_25
  let v37 : BitVec 32 := Scalar.addi c0_i32_26 v36
  let c128_i32 : BitVec 32 := 128#32
  let v38 : BitVec 32 := Scalar.muli v37 c128_i32
  let v39 : BitVec 32 := v38
  let v40 : BitVec 32 := Scalar.addi c768_i32 v39
  let v41 : BitVec 32 := v40
  let v46 : Index := Scalar.indexCast v41
  ![0, v46.toNat]
def k0_off3 (k0_t1 : Fin k0_t1_loop.trips) : Fin 2 → Nat :=
  let c0_40 : Index := 0#32
  let c0_i32_26 : BitVec 32 := 0#32
  let c0_i32 : BitVec 32 := 0#32
  let c1_i32 : BitVec 32 := 1#32
  let arg8 : BitVec 32 := Scf.iv c0_i32 c1_i32 k0_t1
  let c1_i32_25 : BitVec 32 := 1#32
  let v36 : BitVec 32 := Scalar.muli arg8 c1_i32_25
  let v37 : BitVec 32 := Scalar.addi c0_i32_26 v36
  let c128_i32 : BitVec 32 := 128#32
  let v38 : BitVec 32 := Scalar.muli v37 c128_i32
  let v39 : BitVec 32 := v38
  let v87 : Index := Scalar.indexCast v39
  ![0, v87.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2304x768_S768x2304_1_0 : S2304x768.Transposes [1, 0] S768x2304
  bitsLt_bf16_f32 : FTy.bits .bf16 < FTy.bits .f32
  transposes_S768x768_S768x768_1_0 : S768x768.Transposes [1, 0] S768x768
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x2304_S768x768_0_0 : ∀ a, (![0, 0] : Fin 2 → Nat) a + S768x768.size a ≤ S768x2304.size a
  h_S768x768 : 0 < S768x768.numel
  shapeCasts_S768x768_S768x768 : S768x768.ShapeCasts S768x768
  inb_S1024x2304_S1024x768_0_0 : ∀ a, (![0, 0] : Fin 2 → Nat) a + S1024x768.size a ≤ S1024x2304.size a
  h_S1024x768 : 0 < S1024x768.numel
  shapeCasts_S1024x768_S1024x768 : S1024x768.ShapeCasts S1024x768
  packedbf16_S1024x2304_S1024x768_0_0 : (Rect.unit (s := S1024x2304) ![0, 0] S1024x768.size inb_S1024x2304_S1024x768_0_0).PackedRows (EltTy.packing .bf16)
  inb_S768x2304_S768x768_0_768 : ∀ a, (![0, 768] : Fin 2 → Nat) a + S768x768.size a ≤ S768x2304.size a
  inb_S1024x2304_S1024x768_0_768 : ∀ a, (![0, 768] : Fin 2 → Nat) a + S1024x768.size a ≤ S1024x2304.size a
  packedbf16_S1024x2304_S1024x768_0_768 : (Rect.unit (s := S1024x2304) ![0, 768] S1024x768.size inb_S1024x2304_S1024x768_0_768).PackedRows (EltTy.packing .bf16)
  inb_S768x2304_S768x768_0_1536 : ∀ a, (![0, 1536] : Fin 2 → Nat) a + S768x768.size a ≤ S768x2304.size a
  inb_S1024x2304_S1024x768_0_1536 : ∀ a, (![0, 1536] : Fin 2 → Nat) a + S1024x768.size a ≤ S1024x2304.size a
  packedbf16_S1024x2304_S1024x768_0_1536 : (Rect.unit (s := S1024x2304) ![0, 1536] S1024x768.size inb_S1024x2304_S1024x768_0_1536).PackedRows (EltTy.packing .bf16)
  h_S1024x128 : 0 < S1024x128.numel
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1024x128 : S1024x128.ShapeCasts S1024x128
  inb_S1024x768_S1024x768_0_0 : ∀ a, (![0, 0] : Fin 2 → Nat) a + S1024x768.size a ≤ S1024x768.size a
  inb_S768x768_S768x768_0_0 : ∀ a, (![0, 0] : Fin 2 → Nat) a + S768x768.size a ≤ S768x768.size a
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 128 ∣ (k0_mult2 k0_t1).toNat
  k0_mult3_dvd : ∀ k0_t1 : Fin k0_t1_loop.trips, 128 ∣ (k0_mult3 k0_t1).toNat
  k0_off1_inb : ∀ k0_t1 : Fin k0_t1_loop.trips, ∀ a, (k0_off1 k0_t1) a + S1024x128.size a ≤ S1024x2304.size a
  k0_off2_inb : ∀ k0_t1 : Fin k0_t1_loop.trips, ∀ (r : Fin 2), ∀ a, (k0_off2 k0_t1 (BitVec.ofNat 32 (768 + 768 * r.val))) a + S1024x128.size a ≤ S1024x2304.size a
  k0_off3_inb : ∀ k0_t1 : Fin k0_t1_loop.trips, ∀ a, (k0_off3 k0_t1) a + S1024x128.size a ≤ S1024x768.size a
  k0_off3_packedbf16 : ∀ k0_t1 : Fin k0_t1_loop.trips, (Rect.unit (s := S1024x768) (k0_off3 k0_t1) S1024x128.size (k0_off3_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S8x1024x768.size a
  hwx0_4 : ∀ i : grid0.Coords, EltTy.bits .f32 = 32 ∨ (Rect.block (s := S8x1024x768) S1x1024x768.size (cc0_transform_4 i) (hinb0_4 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S_ : Shape := ⟨0, ![]⟩
abbrev S8x12x1024x1024 : Shape := ⟨4, ![8, 12, 1024, 1024]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x3x12x64, .f32⟩
  | .hbm, ⟨6, _⟩ => ⟨S3x8x12x1024x64, .f32⟩
  | .hbm, ⟨7, _⟩ => ⟨S1x8x12x1024x64, .f32⟩
  | .hbm, ⟨8, _⟩ => ⟨S8x12x1024x64, .f32⟩
  | .hbm, ⟨9, _⟩ => ⟨S1x8x12x1024x64, .f32⟩
  | .hbm, ⟨10, _⟩ => ⟨S8x12x1024x64, .f32⟩
  | .hbm, ⟨11, _⟩ => ⟨S1x8x12x1024x64, .f32⟩
  | .hbm, ⟨12, _⟩ => ⟨S8x12x1024x64, .f32⟩
  | .hbm, ⟨13, _⟩ => ⟨S_, .f32⟩
  | .hbm, ⟨14, _⟩ => ⟨S8x12x1024x64, .f32⟩
  | .hbm, ⟨15, _⟩ => ⟨S8x12x1024x64, .f32⟩
  | .hbm, ⟨16, _⟩ => ⟨S8x12x1024x1024, .f32⟩
  | .hbm, ⟨17, _⟩ => ⟨S_, .f32⟩
  | .hbm, ⟨18, _⟩ => ⟨S8x12x1024, .f32⟩
  | .hbm, ⟨19, _⟩ => ⟨S_, .f32⟩
  | .hbm, ⟨20, _⟩ => ⟨S8x12x1024, .f32⟩
  | .hbm, ⟨21, _⟩ => ⟨S8x12x1024, .f32⟩
  | .hbm, ⟨22, _⟩ => ⟨S8x12x1024x1, .f32⟩
  | .hbm, ⟨23, _⟩ => ⟨S8x12x1024x1024, .f32⟩
  | .hbm, ⟨24, _⟩ => ⟨S8x12x1024x1024, .f32⟩
  | .hbm, ⟨25, _⟩ => ⟨S8x12x1024x1024, .f32⟩
  | .hbm, ⟨26, _⟩ => ⟨S_, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x64, .f32⟩
  | .hbm, ⟨32, _⟩ => ⟨S8x1024x12x64, .f32⟩
  | .hbm, ⟨33, _⟩ => ⟨S8x1024x768, .f32⟩
  | .hbm, ⟨34, _⟩ => ⟨S8x1024x768, .f32⟩
  | .hbm, ⟨35, _⟩ => ⟨S1x1x768, .f32⟩
  | .hbm, ⟨36, _⟩ => ⟨S8x1024x768, .f32⟩
  | .hbm, ⟨37, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x64 : S_.BroadcastsInDim S8x12x1024x64 (![] : Fin 0 → Fin S8x12x1024x64.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Spec.lean ====
/-
  Multi-head self-attention over one batch row, as one function of the argument arrays on the extended reals.

  For a row block `x` (1024 tokens of 768 features) and the stacked projection weights `w` (2304 output
  features: 768 query, 768 key and 768 value features, each group split into 12 heads of 64):
  `proj` is the projection `x · wᵀ`; for head `h` the score of query token `i` against key token `j` is the
  64-term dot product of their projected features times 1/8; the scores of a query token are turned into
  weights by the softmax (subtract the row's maximum, exponentiate, divide by the row's sum); a head's output
  is the weighted sum of the value features; the heads' outputs laid side by side (feature `c` belongs to head
  `c / 64`, position `c % 64`) go through the output projection `· pwᵀ + pb`.

  The one algebraic law used between two spellings of the score: a constant factor `1/8` applied to the query
  features before the dot product is the same as applied to the dot product, on every extended real, because
  multiplication by a nonnegative real distributes over the extended reals' addition.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx
open scoped BigOperators

/-- The score scale `1/8 = 64^(-1/2)`, as the f32 word both programs print. -/
abbrev scale : EReal := Ideal.ofBits .f32 0x3E000000#32
/-- The f32 word of `-∞`, from which both programs start a row's maximum. -/
abbrev negInf : EReal := Ideal.ofBits .f32 0xFF800000#32

theorem scale_eq : scale = ((0.125 : ℝ) : EReal) := by
  simp [scale, Ideal.ofBits, Ideal.ieee, -EReal.coe_mul]; norm_num

/-- Column of the projection holding query feature `d` of head `h`; the key and value features sit 768 and
    1536 columns further. -/
def qcol (h : Fin 12) (d : Fin 64) : Fin 2304 := ⟨h.val * 64 + d.val, by omega⟩
def kcol (h : Fin 12) (d : Fin 64) : Fin 2304 := ⟨768 + (h.val * 64 + d.val), by omega⟩
def vcol (h : Fin 12) (d : Fin 64) : Fin 2304 := ⟨1536 + (h.val * 64 + d.val), by omega⟩

section
variable (x : Fin 1024 → Fin 768 → EReal) (w : Fin 2304 → Fin 768 → EReal)

/-- The projection `x · wᵀ`. -/
def proj (n : Fin 1024) (e : Fin 2304) : EReal := ∑ d : Fin 768, x n d * w e d

/-- Head `h`'s score of query token `i` against key token `j`. -/
def score (h : Fin 12) (i j : Fin 1024) : EReal :=
  (∑ d : Fin 64, proj x w i (qcol h d) * proj x w j (kcol h d)) * scale

/-- The largest score of a query token's row. -/
def rowMax (h : Fin 12) (i : Fin 1024) : EReal :=
  (Finset.univ : Finset (Fin 1024)).fold max negInf (fun j => score x w h i j)

def expo (h : Fin 12) (i j : Fin 1024) : EReal := Ideal.exp (score x w h i j - rowMax x w h i)

def rowSum (h : Fin 12) (i : Fin 1024) : EReal := ∑ j : Fin 1024, expo x w h i j

/-- The softmax weight of key token `j` for query token `i`. -/
def prob (h : Fin 12) (i j : Fin 1024) : EReal := Ideal.div (expo x w h i j) (rowSum x w h i)

/-- Head `h`'s output feature `d` at token `i`. -/
def headOut (h : Fin 12) (i : Fin 1024) (d : Fin 64) : EReal :=
  ∑ j : Fin 1024, prob x w h i j * proj x w j (vcol h d)

/-- The heads' outputs side by side. -/
def attn (i : Fin 1024) (c : Fin 768) : EReal :=
  headOut x w ⟨c.val / 64, by omega⟩ i ⟨c.val % 64, by omega⟩

/-- The output projection of the attention features. -/
def out (pw : Fin 768 → Fin 768 → EReal) (pb : Fin 768 → EReal) (i : Fin 1024) (e : Fin 768) : EReal :=
  (∑ c : Fin 768, attn x w i c * pw e c) + pb e

end

/-! ## One head over abstract query, key and value blocks -/

section
variable (q k v : Fin 1024 → Fin 64 → EReal)

/-- Scaled dot product of query row `i` with key row `j`. -/
def hscore (i j : Fin 1024) : EReal := (∑ d : Fin 64, q i d * k j d) * scale
def hmax (i : Fin 1024) : EReal := (Finset.univ : Finset (Fin 1024)).fold max negInf (fun j => hscore q k i j)
def hexp (i j : Fin 1024) : EReal := Ideal.exp (hscore q k i j - hmax q k i)
def hsum (i : Fin 1024) : EReal := ∑ j : Fin 1024, hexp q k i j
/-- The softmax-weighted sum of the value rows. -/
def hout (i : Fin 1024) (d : Fin 64) : EReal := ∑ j : Fin 1024, Ideal.div (hexp q k i j) (hsum q k i) * v j d

end

/-- A head's output is the generic head over its three 64-column blocks of the projection. -/
theorem headOut_eq (x : Fin 1024 → Fin 768 → EReal) (w : Fin 2304 → Fin 768 → EReal) (h : Fin 12) (i : Fin 1024) (d : Fin 64) :
    headOut x w h i d = hout (fun n d => proj x w n (qcol h d)) (fun n d => proj x w n (kcol h d))
      (fun n d => proj x w n (vcol h d)) i d := rfl

/-- The whole result array from the four argument arrays. -/
def G (x0 : (⟨3, ![8, 1024, 768]⟩ : Shape).Idx → EReal) (x1 : (⟨2, ![2304, 768]⟩ : Shape).Idx → EReal)
    (x2 : (⟨2, ![768, 768]⟩ : Shape).Idx → EReal) (x3 : (⟨1, ![768]⟩ : Shape).Idx → EReal) :
    (⟨3, ![8, 1024, 768]⟩ : Shape).Idx → EReal :=
  fun i => out (fun n d => x0 (ix3 (i 0) n d)) (fun e d => x1 (ix2 e d)) (fun e c => x2 (ix2 e c)) (fun e => x3 (ix1 e)) (i 1) (i 2)

/-! ## The scale may sit on the query features or on the dot product -/

/-- A nonnegative real factor leaves a finite sum of extended reals termwise. -/
theorem sum_mul_coe_of_nonneg {ι : Type*} (s : Finset ι) (f : ι → EReal) {r : ℝ} (hr : 0 ≤ r) :
    (∑ k ∈ s, f k * (r : EReal)) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Scaling the left factors of a dot product by `1/8` scales the dot product. -/
theorem sum_scale_left {n : Nat} (a b : Fin n → EReal) :
    (∑ d : Fin n, (a d * scale) * b d) = (∑ d : Fin n, a d * b d) * scale := by
  rw [scale_eq, ← sum_mul_coe_of_nonneg _ _ (by norm_num : (0 : ℝ) ≤ 0.125)]
  exact Finset.sum_congr rfl fun d _ => mul_right_comm _ _ _

/-- A maximum folded from `-∞` is not below `-∞`: taking the larger of the two again changes nothing. -/
theorem max_negInf_fold {n : Nat} (f : Fin n → EReal) :
    max negInf ((Finset.univ : Finset (Fin n)).fold max negInf f) = (Finset.univ : Finset (Fin n)).fold max negInf f :=
  max_eq_right ((Finset.le_fold_max _).mpr (Or.inl le_rfl))

end Cert.Attn

end
-- ==== Proof.KernelPay.lean ====
/-
  The kernel body's arithmetic, read at an index on the extended reals.

  Each stored value of the body is a composition of matrix products into a zero accumulator, row maxima and row
  sums of a 1024 × 1024 score block, pointwise operations, column slices of a 128-column pair of heads and the
  concatenation of two 64-column halves. Read at an index: a matrix product is the sum over the contracted
  coordinate, a row maximum is the fold of `max` from `-∞` over the row, a row sum the sum over the row, a
  keep-dims broadcast of a row statistic is that statistic at the row, a change of float format is the identity.
  So one head of the pair is the generic head `hout` of the specification over its 64-column blocks.
-/
import proofs.«126867_j83665962926276_2_alg».proof.Proof.Gen.KernelIdeal.Skeleton
import proofs.«126867_j83665962926276_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Cert.KernelIdeal Cert.KernelIdeal.Gen Idealize.ShloMosaic Idealize.ShloMosaic.ValueIdx Cert.Attn

/-! ## The three matrix products -/

theorem dproj_lhs_0 (j : S1024x768.Idx) (q : dot_S1024x768_S768x768_S1024x768_1_0_0_1_n_n.contr.Idx) : (dot_S1024x768_S768x768_S1024x768_1_0_0_1_n_n.lhsIdx j q 0).val = (j 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem dproj_lhs_1 (j : S1024x768.Idx) (q : dot_S1024x768_S768x768_S1024x768_1_0_0_1_n_n.contr.Idx) : (dot_S1024x768_S768x768_S1024x768_1_0_0_1_n_n.lhsIdx j q 1).val = (q ⟨0, by decide⟩).val :=
  dot_S1024x768_S768x768_S1024x768_1_0_0_1_n_n.lhsIdx_val_of_single rfl j q
theorem dproj_rhs_0 (j : S1024x768.Idx) (q : dot_S1024x768_S768x768_S1024x768_1_0_0_1_n_n.contr.Idx) : (dot_S1024x768_S768x768_S1024x768_1_0_0_1_n_n.rhsIdx j q 0).val = (q ⟨0, by decide⟩).val :=
  dot_S1024x768_S768x768_S1024x768_1_0_0_1_n_n.rhsIdx_val_of_single rfl j q
theorem dproj_rhs_1 (j : S1024x768.Idx) (q : dot_S1024x768_S768x768_S1024x768_1_0_0_1_n_n.contr.Idx) : (dot_S1024x768_S768x768_S1024x768_1_0_0_1_n_n.rhsIdx j q 1).val = (j 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

theorem matmul_rows_cols (a : FVec Ideal S1024x768 .bf16) (b : FVec Ideal S768x768 .bf16) (n : Fin 1024) (e : Fin 768) :
    matmul dot_S1024x768_S768x768_S1024x768_1_0_0_1_n_n none a b (constant S1024x768 .f32 0x00000000#32) (ix2 n e)
      = ∑ k : Fin 768, a (ix2 n k) * b (ix2 k e) := by
  refine (Ideal.matmul_constant_zero_apply dot_S1024x768_S768x768_S1024x768_1_0_0_1_n_n none a b (ix2 n e)).trans ?_
  rw [← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 n e) ((contrEquiv1 dot_S1024x768_S768x768_S1024x768_1_0_0_1_n_n 768 rfl rfl).symm k) = ix2 n k :=
    funext fun ax => Fin.ext (by
    match ax with
    | ⟨0, _⟩ => exact dproj_lhs_0 _ _
    | ⟨1, _⟩ => exact (dproj_lhs_1 _ _).trans hk)
  have er : dot_S1024x768_S768x768_S1024x768_1_0_0_1_n_n.rhsIdx (ix2 n e) ((contrEquiv1 dot_S1024x768_S768x768_S1024x768_1_0_0_1_n_n 768 rfl rfl).symm k) = ix2 k e :=
    funext fun ax => Fin.ext (by
    match ax with
    | ⟨0, _⟩ => exact (dproj_rhs_0 _ _).trans hk
    | ⟨1, _⟩ => exact dproj_rhs_1 _ _)
  rw [el, er]

theorem dqk_lhs_0 (j : S1024x1024.Idx) (q : dot_S1024x64_S1024x64_S1024x1024_1_1_0_0_n_n.contr.Idx) : (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem dqk_lhs_1 (j : S1024x1024.Idx) (q : dot_S1024x64_S1024x64_S1024x1024_1_1_0_0_n_n.contr.Idx) : (dot_S1024x64_S1024x64_S1024x1024_1_1_0_0_n_n.lhsIdx j q 1).val = (q ⟨0, by decide⟩).val :=
  dot_S1024x64_S1024x64_S1024x1024_1_1_0_0_n_n.lhsIdx_val_of_single rfl j q
theorem dqk_rhs_0 (j : S1024x1024.Idx) (q : dot_S1024x64_S1024x64_S1024x1024_1_1_0_0_n_n.contr.Idx) : (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem dqk_rhs_1 (j : S1024x1024.Idx) (q : dot_S1024x64_S1024x64_S1024x1024_1_1_0_0_n_n.contr.Idx) : (dot_S1024x64_S1024x64_S1024x1024_1_1_0_0_n_n.rhsIdx j q 1).val = (q ⟨0, by decide⟩).val :=
  dot_S1024x64_S1024x64_S1024x1024_1_1_0_0_n_n.rhsIdx_val_of_single rfl j q

theorem matmul_rows_rows (a : FVec Ideal S1024x64 .bf16) (b : FVec Ideal S1024x64 .bf16) (i j : Fin 1024) :
    matmul dot_S1024x64_S1024x64_S1024x1024_1_1_0_0_n_n none a b (constant S1024x1024 .f32 0x00000000#32) (ix2 i j)
      = ∑ k : Fin 64, a (ix2 i k) * b (ix2 j k) := by
  refine (Ideal.matmul_constant_zero_apply dot_S1024x64_S1024x64_S1024x1024_1_1_0_0_n_n none a b (ix2 i j)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 i j) ((contrEquiv1 dot_S1024x64_S1024x64_S1024x1024_1_1_0_0_n_n 64 rfl rfl).symm k) = ix2 i k :=
    funext fun ax => Fin.ext (by
    match ax with
    | ⟨0, _⟩ => exact dqk_lhs_0 _ _
    | ⟨1, _⟩ => exact (dqk_lhs_1 _ _).trans hk)
  have er : dot_S1024x64_S1024x64_S1024x1024_1_1_0_0_n_n.rhsIdx (ix2 i j) ((contrEquiv1 dot_S1024x64_S1024x64_S1024x1024_1_1_0_0_n_n 64 rfl rfl).symm k) = ix2 j k :=
    funext fun ax => Fin.ext (by
    match ax with
    | ⟨0, _⟩ => exact dqk_rhs_0 _ _
    | ⟨1, _⟩ => exact (dqk_rhs_1 _ _).trans hk)
  rw [el, er]

theorem dpv_lhs_0 (j : S1024x64.Idx) (q : dot_S1024x1024_S1024x64_S1024x64_1_0_0_1_n_n.contr.Idx) : (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem dpv_lhs_1 (j : S1024x64.Idx) (q : dot_S1024x1024_S1024x64_S1024x64_1_0_0_1_n_n.contr.Idx) : (dot_S1024x1024_S1024x64_S1024x64_1_0_0_1_n_n.lhsIdx j q 1).val = (q ⟨0, by decide⟩).val :=
  dot_S1024x1024_S1024x64_S1024x64_1_0_0_1_n_n.lhsIdx_val_of_single rfl j q
theorem dpv_rhs_0 (j : S1024x64.Idx) (q : dot_S1024x1024_S1024x64_S1024x64_1_0_0_1_n_n.contr.Idx) : (dot_S1024x1024_S1024x64_S1024x64_1_0_0_1_n_n.rhsIdx j q 0).val = (q ⟨0, by decide⟩).val :=
  dot_S1024x1024_S1024x64_S1024x64_1_0_0_1_n_n.rhsIdx_val_of_single rfl j q
theorem dpv_rhs_1 (j : S1024x64.Idx) (q : dot_S1024x1024_S1024x64_S1024x64_1_0_0_1_n_n.contr.Idx) : (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem matmul_weights_values (a : FVec Ideal S1024x1024 .bf16) (b : FVec Ideal S1024x64 .bf16) (i : Fin 1024) (d : Fin 64) :
    matmul dot_S1024x1024_S1024x64_S1024x64_1_0_0_1_n_n none a b (constant S1024x64 .f32 0x00000000#32) (ix2 i d)
      = ∑ k : Fin 1024, a (ix2 i k) * b (ix2 k d) := by
  refine (Ideal.matmul_constant_zero_apply dot_S1024x1024_S1024x64_S1024x64_1_0_0_1_n_n none a b (ix2 i d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 i d) ((contrEquiv1 dot_S1024x1024_S1024x64_S1024x64_1_0_0_1_n_n 1024 rfl rfl).symm k) = ix2 i k :=
    funext fun ax => Fin.ext (by
    match ax with
    | ⟨0, _⟩ => exact dpv_lhs_0 _ _
    | ⟨1, _⟩ => exact (dpv_lhs_1 _ _).trans hk)
  have er : dot_S1024x1024_S1024x64_S1024x64_1_0_0_1_n_n.rhsIdx (ix2 i d) ((contrEquiv1 dot_S1024x1024_S1024x64_S1024x64_1_0_0_1_n_n 1024 rfl rfl).symm k) = ix2 k d :=
    funext fun ax => Fin.ext (by
    match ax with
    | ⟨0, _⟩ => exact (dpv_rhs_0 _ _).trans hk
    | ⟨1, _⟩ => exact dpv_rhs_1 _ _)
  rw [el, er]

/-! ## Row statistics of a score block -/

theorem rowmax_apply (s : FVec Ideal S1024x1024 .f32) (i : Fin 1024) :
    multiReduction .maximumf [1] S1024 s 0xFF800000#32 reduces_S1024x1024_S1024 (.inl rfl) rfl (ix1 i)
      = (Finset.univ : Finset (Fin 1024)).fold max negInf (fun j => s (ix2 i j)) := by
  refine (Ideal.multiReduction_maximumf_single s 0xFF800000#32 reduces_S1024x1024_S1024 (.inl rfl) rfl (ix1 i)).trans ?_
  exact Finset.fold_congr (fun j _ => congrArg s (funext fun ax => Fin.ext (by
    match ax with
    | ⟨0, _⟩ => rfl
    | ⟨1, _⟩ => rfl)))

theorem rowsum_apply (s : FVec Ideal S1024x1024 .f32) (i : Fin 1024) :
    multiReduction .add [1] S1024 s 0x00000000#32 reduces_S1024x1024_S1024 (.inl rfl) rfl (ix1 i)
      = ∑ j : Fin 1024, s (ix2 i j) := by
  refine (Ideal.multiReduction_add_single s 0x00000000#32 reduces_S1024x1024_S1024 (.inl rfl) rfl (ix1 i)).trans ?_
  exact Finset.sum_congr rfl (fun j _ => congrArg s (funext fun ax => Fin.ext (by
    match ax with
    | ⟨0, _⟩ => rfl
    | ⟨1, _⟩ => rfl)))

/-- A row statistic kept as a one-column block and laid along every column is the statistic of the row. -/
theorem keepdims_apply (v : FVec Ideal S1024 .f32) (i j : Fin 1024) :
    broadcastTo S1024x1024 (shapeCast S1024x1 v shapeCasts_S1024_S1024x1) broadcasts_S1024x1_S1024x1024 (ix2 i j)
      = v (ix1 i) := by
  refine (broadcastTo_apply _ broadcasts_S1024x1_S1024x1024 (ix2 i j) (ix2 i (0 : Fin 1)) (fun ax => ?_)).trans ?_
  · match ax with
    | ⟨0, _⟩ => show i.val = if (1024 : Nat) = 1 then 0 else i.val; rw [if_neg (by decide)]
    | ⟨1, _⟩ => show 0 = if (1 : Nat) = 1 then 0 else j.val; rw [if_pos rfl]
  · exact shapeCast_apply v shapeCasts_S1024_S1024x1 (ix2 i (0 : Fin 1)) (ix1 i) (by
      rw [Shape.rowMajor_val_one, Shape.rowMajor_val_two]; show i.val = i.val * 1 + 0; omega)

/-! ## One head, as the body computes it over whole blocks -/

/-- The scaled scores of a head's query block against its key block. -/
def vscore (q k : FVec Ideal S1024x64 .bf16) : FVec Ideal S1024x1024 .f32 :=
  mulf (matmul dot_S1024x64_S1024x64_S1024x1024_1_1_0_0_n_n none q k (constant S1024x1024 .f32 0x00000000#32))
    (broadcast S1024x1024 (Scalar.ofBits (F := Ideal) .f32 0x3E000000#32))

/-- The exponentials of the scores less their row maxima. -/
def vexp (q k : FVec Ideal S1024x64 .bf16) : FVec Ideal S1024x1024 .f32 :=
  exp (subf (vscore q k) (broadcastTo S1024x1024 (shapeCast S1024x1
    (multiReduction .maximumf [1] S1024 (vscore q k) 0xFF800000#32 reduces_S1024x1024_S1024 (.inl rfl) rfl)
    shapeCasts_S1024_S1024x1) broadcasts_S1024x1_S1024x1024))

/-- The exponentials divided by their row sums, times the value block. -/
def vout (e : FVec Ideal S1024x1024 .f32) (v : FVec Ideal S1024x64 .bf16) : FVec Ideal S1024x64 .bf16 :=
  truncf .bf16 (matmul dot_S1024x1024_S1024x64_S1024x64_1_0_0_1_n_n none
    (truncf .bf16 (divf e (broadcastTo S1024x1024 (shapeCast S1024x1
      (multiReduction .add [1] S1024 e 0x00000000#32 reduces_S1024x1024_S1024 (.inl rfl) rfl)
      shapeCasts_S1024_S1024x1) broadcasts_S1024x1_S1024x1024)) bitsLt_bf16_f32)
    v (constant S1024x64 .f32 0x00000000#32)) bitsLt_bf16_f32

theorem vscore_at (q k : FVec Ideal S1024x64 .bf16) (i j : Fin 1024) :
    vscore q k (ix2 i j) = hscore (fun n d => q (ix2 n d)) (fun n d => k (ix2 n d)) i j := by
  unfold vscore hscore
  exact congrArg (· * scale) (matmul_rows_rows q k i j)

theorem vexp_at (q k : FVec Ideal S1024x64 .bf16) (i j : Fin 1024) :
    vexp q k (ix2 i j) = hexp (fun n d => q (ix2 n d)) (fun n d => k (ix2 n d)) i j := by
  unfold vexp hexp hmax
  show Ideal.exp (vscore q k (ix2 i j) - broadcastTo S1024x1024 _ broadcasts_S1024x1_S1024x1024 (ix2 i j)) = _
  rw [keepdims_apply, rowmax_apply, vscore_at]
  exact congrArg (fun z => Ideal.exp (_ - z)) (Finset.fold_congr (fun j' _ => vscore_at q k i j'))

theorem vout_at (e : FVec Ideal S1024x1024 .f32) (v : FVec Ideal S1024x64 .bf16) (i : Fin 1024) (d : Fin 64) :
    vout e v (ix2 i d) = ∑ j : Fin 1024, Ideal.div (e (ix2 i j)) (∑ j' : Fin 1024, e (ix2 i j')) * v (ix2 j d) := by
  unfold vout
  refine (matmul_weights_values _ v i d).trans ?_
  refine Finset.sum_congr rfl fun j _ => congrArg (· * v (ix2 j d)) ?_
  show Ideal.div (e (ix2 i j)) (broadcastTo S1024x1024 _ broadcasts_S1024x1_S1024x1024 (ix2 i j)) = _
  rw [keepdims_apply, rowsum_apply]

/-- A whole head over its blocks is the specification's generic head. -/
theorem vhead_at (q k v : FVec Ideal S1024x64 .bf16) (i : Fin 1024) (d : Fin 64) :
    vout (vexp q k) v (ix2 i d)
      = hout (fun n d => q (ix2 n d)) (fun n d => k (ix2 n d)) (fun n d => v (ix2 n d)) i d := by
  rw [vout_at]
  unfold hout hsum
  refine Finset.sum_congr rfl fun j _ => ?_
  rw [vexp_at]
  refine congrArg (fun z => Ideal.div _ z * _) (Finset.sum_congr rfl fun j' _ => vexp_at q k i j')

/-! ## The printed payloads -/

/-- The left and right 64-column halves of a 128-column pair. -/
def colL (d : Fin 64) : Fin 128 := ⟨0 + d.val, by omega⟩
def colR (d : Fin 64) : Fin 128 := ⟨64 + d.val, by omega⟩

theorem sliceL_at (x : FVec Ideal S1024x128 .bf16) (n : Fin 1024) (d : Fin 64) :
    extractStridedSlice S1024x64 ![0, 0] x slices_S1024x128_o0_0_S1024x64 (ix2 n d) = x (ix2 n (colL d)) :=
  slice2_axis1_eq 0 x slices_S1024x128_o0_0_S1024x64 n d
theorem sliceR_at (x : FVec Ideal S1024x128 .bf16) (n : Fin 1024) (d : Fin 64) :
    extractStridedSlice S1024x64 ![0, 64] x slices_S1024x128_o0_64_S1024x64 (ix2 n d) = x (ix2 n (colR d)) :=
  slice2_axis1_eq 64 x slices_S1024x128_o0_64_S1024x64 n d

theorem pay2_eq (v45 v47 v49 : FVec Ideal S1024x128 .bf16) :
    k0_pay2 v45 v47 v49 = vout (vexp (extractStridedSlice S1024x64 ![0, 0] v45 slices_S1024x128_o0_0_S1024x64)
      (extractStridedSlice S1024x64 ![0, 0] v47 slices_S1024x128_o0_0_S1024x64))
      (extractStridedSlice S1024x64 ![0, 0] v49 slices_S1024x128_o0_0_S1024x64) := rfl
theorem pay3_eq (v49 : FVec Ideal S1024x128 .bf16) :
    k0_pay3 v49 = extractStridedSlice S1024x64 ![0, 64] v49 slices_S1024x128_o0_64_S1024x64 := rfl
theorem pay4_eq (v45 v47 : FVec Ideal S1024x128 .bf16) :
    k0_pay4 v45 v47 = vexp (extractStridedSlice S1024x64 ![0, 64] v45 slices_S1024x128_o0_64_S1024x64)
      (extractStridedSlice S1024x64 ![0, 64] v47 slices_S1024x128_o0_64_S1024x64) := rfl
theorem pay9_eq (v67 v70 : FVec Ideal S1024x64 .bf16) (v78 : FVec Ideal S1024x1024 .f32) :
    k0_pay9 v67 v70 v78 = shapeCast S1024x128 (concatenate S1024x128 1 [⟨S1024x64, v67⟩, ⟨S1024x64, vout v78 v70⟩]
      concatenates_S1024x64_S1024x64_S1024x128_d1) shapeCasts_S1024x128_S1024x128 := rfl

/-- What one trip of the loop over head pairs stores, at row `i` and column `c` of the pair: the head of the
    half the column lies in, over that half's 64 columns of the query, key and value pairs. -/
theorem pair_at (Q K V : FVec Ideal S1024x128 .bf16) (i : Fin 1024) (c : Fin 128) :
    k0_pay9 (F := Ideal) (k0_pay2 Q K V) (k0_pay3 V) (k0_pay4 Q K) (ix2 i c)
      = if h : c.val < 64 then
          hout (fun n d => Q (ix2 n (colL d))) (fun n d => K (ix2 n (colL d))) (fun n d => V (ix2 n (colL d))) i ⟨c.val, h⟩
        else
          hout (fun n d => Q (ix2 n (colR d))) (fun n d => K (ix2 n (colR d))) (fun n d => V (ix2 n (colR d))) i
            ⟨c.val - 64, by have := c.isLt; omega⟩ := by
  rw [pay9_eq, shapeCast_self, pay2_eq, pay3_eq, pay4_eq]
  by_cases h : c.val < 64
  · rw [dif_pos h]
    refine (concatenate_pair_apply_left (t := S1024x128) (s₁ := S1024x64) (s₂ := S1024x64) (1 : Fin 2) _ _ concatenates_S1024x64_S1024x64_S1024x128_d1 (ix2 i c) rfl
      (ix2 i (⟨c.val, h⟩ : Fin 64)) (fun b => by
        match b with
        | ⟨0, _⟩ => rfl
        | ⟨1, _⟩ => rfl)).trans ?_
    rw [vhead_at]
    simp only [sliceL_at]
  · rw [dif_neg h]
    refine (concatenate_pair_apply_right (t := S1024x128) (s₁ := S1024x64) (s₂ := S1024x64) (1 : Fin 2) _ _ concatenates_S1024x64_S1024x64_S1024x128_d1 (ix2 i c) rfl rfl
      (ix2 i (⟨c.val - 64, by have := c.isLt; omega⟩ : Fin 64)) (fun b hb => by
        match b with
        | ⟨0, _⟩ => rfl
        | ⟨1, _⟩ => exact absurd rfl hb) (by show c.val - 64 + 64 = c.val; omega)).trans ?_
    rw [vhead_at]
    simp only [sliceR_at]

/-- A projection chunk: the row block times a 768-column block of the transposed weights. -/
theorem pay6_at (x0 : FVec Ideal S1x1024x768 .f32) (v3 : FVec Ideal S768x768 .bf16) (n : Fin 1024) (e : Fin 768) :
    k0_pay6 (F := Ideal) x0 v3 (ix2 n e) = ∑ d : Fin 768, x0 (ix3 (0 : Fin 1) n d) * v3 (ix2 d e) := by
  unfold k0_pay6 k0_pay5
  rw [shapeCast_self, shapeCast_self]
  refine (matmul_rows_cols _ v3 n e).trans ?_
  exact Finset.sum_congr rfl fun d _ => congrArg (· * v3 (ix2 d e)) (shapeCast_1ab_ab_apply x0 _ n d)
theorem pay7_at (x0 : FVec Ideal S1x1024x768 .f32) (v3 : FVec Ideal S768x768 .bf16) (n : Fin 1024) (e : Fin 768) :
    k0_pay7 (F := Ideal) x0 v3 (ix2 n e) = ∑ d : Fin 768, x0 (ix3 (0 : Fin 1) n d) * v3 (ix2 d e) := by
  unfold k0_pay7 k0_pay5
  rw [shapeCast_self, shapeCast_self]
  refine (matmul_rows_cols _ v3 n e).trans ?_
  exact Finset.sum_congr rfl fun d _ => congrArg (· * v3 (ix2 d e)) (shapeCast_1ab_ab_apply x0 _ n d)
theorem pay8_at (x0 : FVec Ideal S1x1024x768 .f32) (v3 : FVec Ideal S768x768 .bf16) (n : Fin 1024) (e : Fin 768) :
    k0_pay8 (F := Ideal) x0 v3 (ix2 n e) = ∑ d : Fin 768, x0 (ix3 (0 : Fin 1) n d) * v3 (ix2 d e) := by
  unfold k0_pay8 k0_pay5
  rw [shapeCast_self, shapeCast_self]
  refine (matmul_rows_cols _ v3 n e).trans ?_
  exact Finset.sum_congr rfl fun d _ => congrArg (· * v3 (ix2 d e)) (shapeCast_1ab_ab_apply x0 _ n d)

/-- The output projection of the attention features plus the bias row. -/
theorem pay1_at (v25 : FVec Ideal S1024x768 .bf16) (v27 : FVec Ideal S768x768 .bf16) (v29 : FVec Ideal S1x768 .f32)
    (u : Fin 1) (n : Fin 1024) (e : Fin 768) :
    k0_pay1 v25 v27 (constant S1024x768 .f32 0x00000000#32) v29 (ix3 u n e)
      = (∑ d : Fin 768, v25 (ix2 n d) * v27 (ix2 d e)) + v29 (ix2 (0 : Fin 1) e) := by
  unfold k0_pay1
  refine (shapeCast_ab_1ab_apply _ shapeCasts_S1024x768_S1x1024x768 u n e).trans ?_
  rw [shapeCast_self]
  exact congrArg₂ (· + ·) (matmul_rows_cols v25 v27 n e) (broadcastTo_1b_ab_apply v29 broadcasts_S1x768_S1024x768 n e)

theorem pay10_eq (v26 : FVec Ideal S768x768 .bf16) : k0_pay10 v26 = v26 := by
  unfold k0_pay10; exact shapeCast_self _ _

end Cert.Attn.Pay

end
-- ==== Proof.KernelValue.lean ====
/-
  What the kernel body leaves in its output block, as a function of its four input blocks.

  The body fills a projection scratch (1024 × 2304) by three 768-column stores, each the row block times a
  768-column chunk of the transposed weights; every stored chunk is the restriction of ONE function of the scratch
  index, the projection `proj`, so any later load of the scratch reads `proj` at the load's indices. The loop over
  the six head pairs loads, at trip `k`, the three 128-column pairs at columns `128 k`, `768 + 128 k` and
  `1536 + 128 k` and stores the two heads' outputs side by side at columns `128 k …` of the attention scratch
  (1024 × 768): column `c` of that store is feature `128 k + c`, that is head `(128 k + c) / 64`, position
  `(128 k + c) % 64`. So every trip's store is the restriction of ONE function, `attn`, and since the six stores
  cover the scratch, the load after the loop reads `attn`. The output block is its projection plus the bias row.
-/
import proofs.«126867_j83665962926276_2_alg».proof.Proof.KI.Frame
import proofs.«126867_j83665962926276_2_alg».proof.Proof.KernelPay
import Idealize.ShloMosaic.Lib.WholeRead
import Idealize.ShloMosaic.Lib.Pipeline.Value

set_option maxRecDepth 16384

noncomputable section

namespace Cert.Attn.Body

open Cert.KernelIdeal Cert.KernelIdeal.Gen Cert.KernelIdeal.GenP Idealize.ShloMosaic Idealize.ShloMosaic.ValueIdx
open Idealize.ShloMosaic.Tactic Idealize.SL.Sem Cert.Attn Cert.Attn.Pay

variable (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S768x768 .bf16) (harg3 : arg3.IsWhole) (arg4 : Memref sig .tc .vmem S1x768 .f32) (harg4 : arg4.IsWhole) (arg5 : Memref sig .tc .vmem S1x1024x768 .f32) (harg5 : arg5.IsWhole) (arg6 : Memref sig .tc .vmem S1024x2304 .bf16) (harg6 : arg6.IsWhole) (arg7 : Memref sig .tc .vmem S1024x768 .bf16) (harg7 : arg7.IsWhole)
variable (x0 : Vec Ideal S1x1024x768 .f32) (x1 : Vec Ideal S768x2304 .bf16) (x2 : Vec Ideal S768x768 .bf16) (x3 : Vec Ideal S1x768 .f32)

/-- The row block and the (transposed) stacked weights block, as functions of plain coordinates. -/
abbrev XB : Fin 1024 → Fin 768 → EReal := fun n d => x0 (ix3 (0 : Fin 1) n d)
abbrev WB : Fin 2304 → Fin 768 → EReal := fun e d => x1 (ix2 d e)

/-- A function of two coordinates depends on their values only. -/
theorem congr2 {N0 N1 : Nat} {α : Type} (f : Fin N0 → Fin N1 → α) {a a' : Fin N0} {b b' : Fin N1}
    (ha : a.val = a'.val) (hb : b.val = b'.val) : f a b = f a' b' := by rw [Fin.ext ha, Fin.ext hb]

/-! ## The projection scratch -/

theorem chunk1536_at (n : Fin 1024) (e : Fin 768) :
    k0_pay8 (F := Ideal)
        (View.readAt (Elt Ideal) arg1.view (Rect.unit (s := S1x1024x768) ![0, 0, 0] S1x1024x768.size inb_S1x1024x768_S1x1024x768_0_0_0).toLoadRect (harg1.unread x0))
        (View.readAt (Elt Ideal) arg2.view (Rect.unit (s := S768x2304) ![0, 1536] S768x768.size inb_S768x2304_S768x768_0_1536).toLoadRect (harg2.unread x1))
        (ix2 n e)
      = proj (XB x0) (WB x1) n ⟨1536 + e.val, by omega⟩ := by
  rw [pay8_at]
  unfold proj
  refine Finset.sum_congr rfl fun d _ => ?_
  rw [harg1.readAt_unread, harg2.readAt_unread]
  refine congrArg₂ (· * ·) (congrArg x0 (funext fun a => Fin.ext ?_)) (congrArg x1 (funext fun a => Fin.ext ?_))
  · match a with
    | ⟨0, _⟩ => show 0 + 1 * ((0 : Fin 1) : Nat) = ((0 : Fin 1) : Nat); omega
    | ⟨1, _⟩ => show 0 + 1 * n.val = n.val; omega
    | ⟨2, _⟩ => show 0 + 1 * d.val = d.val; omega
  · match a with
    | ⟨0, _⟩ => show 0 + 1 * d.val = d.val; omega
    | ⟨1, _⟩ => show 1536 + 1 * e.val = 1536 + e.val; omega

theorem chunk768_at (n : Fin 1024) (e : Fin 768) :
    k0_pay7 (F := Ideal)
        (View.readAt (Elt Ideal) arg1.view (Rect.unit (s := S1x1024x768) ![0, 0, 0] S1x1024x768.size inb_S1x1024x768_S1x1024x768_0_0_0).toLoadRect (harg1.unread x0))
        (View.readAt (Elt Ideal) arg2.view (Rect.unit (s := S768x2304) ![0, 768] S768x768.size inb_S768x2304_S768x768_0_768).toLoadRect (harg2.unread x1))
        (ix2 n e)
      = proj (XB x0) (WB x1) n ⟨768 + e.val, by omega⟩ := by
  rw [pay7_at]
  unfold proj
  refine Finset.sum_congr rfl fun d _ => ?_
  rw [harg1.readAt_unread, harg2.readAt_unread]
  refine congrArg₂ (· * ·) (congrArg x0 (funext fun a => Fin.ext ?_)) (congrArg x1 (funext fun a => Fin.ext ?_))
  · match a with
    | ⟨0, _⟩ => show 0 + 1 * ((0 : Fin 1) : Nat) = ((0 : Fin 1) : Nat); omega
    | ⟨1, _⟩ => show 0 + 1 * n.val = n.val; omega
    | ⟨2, _⟩ => show 0 + 1 * d.val = d.val; omega
  · match a with
    | ⟨0, _⟩ => show 0 + 1 * d.val = d.val; omega
    | ⟨1, _⟩ => show 768 + 1 * e.val = 768 + e.val; omega

theorem chunk0_at (n : Fin 1024) (e : Fin 768) :
    k0_pay6 (F := Ideal)
        (View.readAt (Elt Ideal) arg1.view (Rect.unit (s := S1x1024x768) ![0, 0, 0] S1x1024x768.size inb_S1x1024x768_S1x1024x768_0_0_0).toLoadRect (harg1.unread x0))
        (View.readAt (Elt Ideal) arg2.view (Rect.unit (s := S768x2304) ![0, 0] S768x768.size inb_S768x2304_S768x768_0_0).toLoadRect (harg2.unread x1))
        (ix2 n e)
      = proj (XB x0) (WB x1) n ⟨0 + e.val, by omega⟩ := by
  rw [pay6_at]
  unfold proj
  refine Finset.sum_congr rfl fun d _ => ?_
  rw [harg1.readAt_unread, harg2.readAt_unread]
  refine congrArg₂ (· * ·) (congrArg x0 (funext fun a => Fin.ext ?_)) (congrArg x1 (funext fun a => Fin.ext ?_))
  · match a with
    | ⟨0, _⟩ => show 0 + 1 * ((0 : Fin 1) : Nat) = ((0 : Fin 1) : Nat); omega
    | ⟨1, _⟩ => show 0 + 1 * n.val = n.val; omega
    | ⟨2, _⟩ => show 0 + 1 * d.val = d.val; omega
  · match a with
    | ⟨0, _⟩ => show 0 + 1 * d.val = d.val; omega
    | ⟨1, _⟩ => show 0 + 1 * e.val = 0 + e.val; omega

/-- The projection scratch after the three chunk stores. -/
abbrev X6 : BufTy.Contents (Elt Ideal) arg6.view.ty :=
  arg6.view.writes (Elt Ideal) arg6.view.junk (kernelRun0_A.sl.HS0_3 (F := Ideal) c arg1 harg1 arg2 harg2 x0 x1)

/-- Every chunk store is the projection restricted to its rectangle. -/
theorem qkv_pieces : ∀ p ∈ kernelRun0_A.sl.HS0_3 (F := Ideal) c arg1 harg1 arg2 harg2 x0 x1, ∀ x : p.1.shape.Idx,
    p.2 x = (fun y : S1024x2304.Idx => proj (XB x0) (WB x1) (y 0) (y 1)) (p.1.emb x) := by
  intro p hp
  unfold kernelRun0_A.sl.HS0_3 at hp
  rcases List.mem_cons.mp hp with rfl | hp
  · intro x
    obtain ⟨n, e, rfl⟩ : ∃ (n : Fin 1024) (e : Fin 768), x = ix2 n e := ⟨x 0, x 1, eq_ix2 x⟩
    exact (chunk1536_at arg1 harg1 arg2 harg2 x0 x1 n e).trans
      (congr2 _ (by show n.val = 0 + 1 * n.val; omega) (by show 1536 + e.val = 1536 + 1 * e.val; omega))
  rcases List.mem_cons.mp hp with rfl | hp
  · intro x
    obtain ⟨n, e, rfl⟩ : ∃ (n : Fin 1024) (e : Fin 768), x = ix2 n e := ⟨x 0, x 1, eq_ix2 x⟩
    exact (chunk768_at arg1 harg1 arg2 harg2 x0 x1 n e).trans
      (congr2 _ (by show n.val = 0 + 1 * n.val; omega) (by show 768 + e.val = 768 + 1 * e.val; omega))
  rcases List.mem_cons.mp hp with rfl | hp
  · intro x
    obtain ⟨n, e, rfl⟩ : ∃ (n : Fin 1024) (e : Fin 768), x = ix2 n e := ⟨x 0, x 1, eq_ix2 x⟩
    exact (chunk0_at arg1 harg1 arg2 harg2 x0 x1 n e).trans
      (congr2 _ (by show n.val = 0 + 1 * n.val; omega) (by show 0 + e.val = 0 + 1 * e.val; omega))
  · exact absurd hp List.not_mem_nil

/-- So the scratch reads as the projection everywhere. -/
theorem qkv_read (y : S1024x2304.Idx) :
    arg6.view.read (Elt Ideal) (X6 c arg1 harg1 arg2 harg2 arg6 x0 x1) y = proj (XB x0) (WB x1) (y 0) (y 1) :=
  View.read_writes_apply_of_pieces (Val := Elt Ideal) arg6.view arg6.view.junk
    (fun y : S1024x2304.Idx => proj (XB x0) (WB x1) (y 0) (y 1))
    (kernelRun0_A.sl.HS0_3 (F := Ideal) c arg1 harg1 arg2 harg2 x0 x1) (qkv_pieces c arg1 harg1 arg2 harg2 x0 x1) y
    (View.cover_of_tiledL (s := S1024x2304) (kernelRun0_A.sl.HS0_3 (F := Ideal) c arg1 harg1 arg2 harg2 x0 x1) ![1024, 768]
      (by sl_kernel_rfl) y)

/-- A 128-column load of the scratch at columns `off 1 …` reads the projection there. -/
theorem pair_load (off : Fin 2 → Nat) (inb : ∀ a, off a + S1024x128.size a ≤ S1024x2304.size a) (h0 : off 0 = 0)
    (n : Fin 1024) (col : Fin 128) (e : Fin 2304) (he : e.val = off 1 + col.val) :
    View.readAt (Elt Ideal) arg6.view (Rect.unit (s := S1024x2304) off S1024x128.size inb).toLoadRect
        (X6 c arg1 harg1 arg2 harg2 arg6 x0 x1) (ix2 n col)
      = proj (XB x0) (WB x1) n e := by
  show arg6.view.read (Elt Ideal) (X6 c arg1 harg1 arg2 harg2 arg6 x0 x1)
    ((Rect.unit (s := S1024x2304) off S1024x128.size inb).toLoadRect.idx (ix2 n col)) = _
  rw [qkv_read]
  exact congr2 _ (by show off 0 + 1 * n.val = n.val; omega) (by show off 1 + 1 * col.val = e.val; omega)

/-! ## One trip of the loop over head pairs -/

/-- The one piece a trip stores: at the trip's columns of the attention scratch, the two heads of the pair over the
    three 128-column loads of the projection scratch. -/
theorem tripL_eq (k : Fin k0_t1_loop.trips) (X : BufTy.Contents (Elt Ideal) arg6.view.ty) :
    tripL_k0_t1 (F := Ideal) Variants.none c none i arg1 harg1 arg2 harg2 arg3 harg3 arg4 harg4 arg5 harg5 arg6 harg6 arg7 harg7 X k
      = [⟨Rect.unit (s := S1024x768) (k0_off3 k) S1024x128.size (k0_off3_inb k),
          k0_pay9
            (k0_pay2
              (View.readAt (Elt Ideal) arg6.view (Rect.unit (s := S1024x2304) (k0_off1 k) S1024x128.size (k0_off1_inb k)).toLoadRect X)
              (View.readAt (Elt Ideal) arg6.view (Rect.unit (s := S1024x2304) (k0_off2 k 768#32) S1024x128.size (k0_off2_inb k 0)).toLoadRect X)
              (View.readAt (Elt Ideal) arg6.view (Rect.unit (s := S1024x2304) (k0_off2 k 1536#32) S1024x128.size (k0_off2_inb k 1)).toLoadRect X))
            (k0_pay3
              (View.readAt (Elt Ideal) arg6.view (Rect.unit (s := S1024x2304) (k0_off2 k 1536#32) S1024x128.size (k0_off2_inb k 1)).toLoadRect X))
            (k0_pay4
              (View.readAt (Elt Ideal) arg6.view (Rect.unit (s := S1024x2304) (k0_off1 k) S1024x128.size (k0_off1_inb k)).toLoadRect X)
              (View.readAt (Elt Ideal) arg6.view (Rect.unit (s := S1024x2304) (k0_off2 k 768#32) S1024x128.size (k0_off2_inb k 0)).toLoadRect X))⟩] := by
  unfold tripL_k0_t1 trip_k0_t1
  rfl

/-- The two heads a trip stores side by side are the attention features at the trip's columns: with the three loads at
    columns `128 K`, `768 + 128 K` and `1536 + 128 K` of the projection scratch, column `col` of the pair is feature
    `c' = 128 K + col`, head `c' / 64`, position `c' % 64`. -/
theorem pair_is_attn (K : Nat) (hK : K < 6) (o1 o2 o3 : Fin 2 → Nat)
    (inb1 : ∀ a, o1 a + S1024x128.size a ≤ S1024x2304.size a) (inb2 : ∀ a, o2 a + S1024x128.size a ≤ S1024x2304.size a)
    (inb3 : ∀ a, o3 a + S1024x128.size a ≤ S1024x2304.size a)
    (h10 : o1 0 = 0) (h11 : o1 1 = 128 * K) (h20 : o2 0 = 0) (h21 : o2 1 = 768 + 128 * K)
    (h30 : o3 0 = 0) (h31 : o3 1 = 1536 + 128 * K)
    (n : Fin 1024) (col : Fin 128) (c' : Fin 768) (hc : c'.val = 128 * K + col.val) :
    k0_pay9 (F := Ideal) (k0_pay2 (View.readAt (Elt Ideal) arg6.view (Rect.unit (s := S1024x2304) o1 S1024x128.size inb1).toLoadRect (X6 c arg1 harg1 arg2 harg2 arg6 x0 x1)) (View.readAt (Elt Ideal) arg6.view (Rect.unit (s := S1024x2304) o2 S1024x128.size inb2).toLoadRect (X6 c arg1 harg1 arg2 harg2 arg6 x0 x1)) (View.readAt (Elt Ideal) arg6.view (Rect.unit (s := S1024x2304) o3 S1024x128.size inb3).toLoadRect (X6 c arg1 harg1 arg2 harg2 arg6 x0 x1))) (k0_pay3 (View.readAt (Elt Ideal) arg6.view (Rect.unit (s := S1024x2304) o3 S1024x128.size inb3).toLoadRect (X6 c arg1 harg1 arg2 harg2 arg6 x0 x1)))
        (k0_pay4 (View.readAt (Elt Ideal) arg6.view (Rect.unit (s := S1024x2304) o1 S1024x128.size inb1).toLoadRect (X6 c arg1 harg1 arg2 harg2 arg6 x0 x1)) (View.readAt (Elt Ideal) arg6.view (Rect.unit (s := S1024x2304) o2 S1024x128.size inb2).toLoadRect (X6 c arg1 harg1 arg2 harg2 arg6 x0 x1))) (ix2 n col)
      = attn (XB x0) (WB x1) n c' := by
  have hcol := col.isLt
  refine (pair_at _ _ _ n col).trans ?_
  unfold attn
  rw [headOut_eq]
  by_cases h : col.val < 64
  · rw [dif_pos h]
    have hq : (fun (m : Fin 1024) (d : Fin 64) => (View.readAt (Elt Ideal) arg6.view (Rect.unit (s := S1024x2304) o1 S1024x128.size inb1).toLoadRect (X6 c arg1 harg1 arg2 harg2 arg6 x0 x1)) (ix2 m (colL d)))
        = (fun m d => proj (XB x0) (WB x1) m (qcol ⟨c'.val / 64, by omega⟩ d)) :=
      funext fun m => funext fun d => pair_load c arg1 harg1 arg2 harg2 arg6 x0 x1 o1 inb1 h10 m (colL d) _ (by
        have := d.isLt; show c'.val / 64 * 64 + d.val = o1 1 + (0 + d.val); omega)
    have hkk : (fun (m : Fin 1024) (d : Fin 64) => (View.readAt (Elt Ideal) arg6.view (Rect.unit (s := S1024x2304) o2 S1024x128.size inb2).toLoadRect (X6 c arg1 harg1 arg2 harg2 arg6 x0 x1)) (ix2 m (colL d)))
        = (fun m d => proj (XB x0) (WB x1) m (kcol ⟨c'.val / 64, by omega⟩ d)) :=
      funext fun m => funext fun d => pair_load c arg1 harg1 arg2 harg2 arg6 x0 x1 o2 inb2 h20 m (colL d) _ (by
        have := d.isLt; show 768 + (c'.val / 64 * 64 + d.val) = o2 1 + (0 + d.val); omega)
    have hv : (fun (m : Fin 1024) (d : Fin 64) => (View.readAt (Elt Ideal) arg6.view (Rect.unit (s := S1024x2304) o3 S1024x128.size inb3).toLoadRect (X6 c arg1 harg1 arg2 harg2 arg6 x0 x1)) (ix2 m (colL d)))
        = (fun m d => proj (XB x0) (WB x1) m (vcol ⟨c'.val / 64, by omega⟩ d)) :=
      funext fun m => funext fun d => pair_load c arg1 harg1 arg2 harg2 arg6 x0 x1 o3 inb3 h30 m (colL d) _ (by
        have := d.isLt; show 1536 + (c'.val / 64 * 64 + d.val) = o3 1 + (0 + d.val); omega)
    rw [hq, hkk, hv]
    exact congrArg (hout _ _ _ n) (Fin.ext (by show col.val = c'.val % 64; omega))
  · rw [dif_neg h]
    have hq : (fun (m : Fin 1024) (d : Fin 64) => (View.readAt (Elt Ideal) arg6.view (Rect.unit (s := S1024x2304) o1 S1024x128.size inb1).toLoadRect (X6 c arg1 harg1 arg2 harg2 arg6 x0 x1)) (ix2 m (colR d)))
        = (fun m d => proj (XB x0) (WB x1) m (qcol ⟨c'.val / 64, by omega⟩ d)) :=
      funext fun m => funext fun d => pair_load c arg1 harg1 arg2 harg2 arg6 x0 x1 o1 inb1 h10 m (colR d) _ (by
        have := d.isLt; show c'.val / 64 * 64 + d.val = o1 1 + (64 + d.val); omega)
    have hkk : (fun (m : Fin 1024) (d : Fin 64) => (View.readAt (Elt Ideal) arg6.view (Rect.unit (s := S1024x2304) o2 S1024x128.size inb2).toLoadRect (X6 c arg1 harg1 arg2 harg2 arg6 x0 x1)) (ix2 m (colR d)))
        = (fun m d => proj (XB x0) (WB x1) m (kcol ⟨c'.val / 64, by omega⟩ d)) :=
      funext fun m => funext fun d => pair_load c arg1 harg1 arg2 harg2 arg6 x0 x1 o2 inb2 h20 m (colR d) _ (by
        have := d.isLt; show 768 + (c'.val / 64 * 64 + d.val) = o2 1 + (64 + d.val); omega)
    have hv : (fun (m : Fin 1024) (d : Fin 64) => (View.readAt (Elt Ideal) arg6.view (Rect.unit (s := S1024x2304) o3 S1024x128.size inb3).toLoadRect (X6 c arg1 harg1 arg2 harg2 arg6 x0 x1)) (ix2 m (colR d)))
        = (fun m d => proj (XB x0) (WB x1) m (vcol ⟨c'.val / 64, by omega⟩ d)) :=
      funext fun m => funext fun d => pair_load c arg1 harg1 arg2 harg2 arg6 x0 x1 o3 inb3 h30 m (colR d) _ (by
        have := d.isLt; show 1536 + (c'.val / 64 * 64 + d.val) = o3 1 + (64 + d.val); omega)
    rw [hq, hkk, hv]
    exact congrArg (hout _ _ _ n) (Fin.ext (by show col.val - 64 = c'.val % 64; omega))

/-- The attention features as a function of the attention scratch's index. -/
def A7 : S1024x768.Idx → EReal := fun y => attn (XB x0) (WB x1) (y 0) (y 1)

/-- Every trip's store is the attention features restricted to its rectangle. -/
theorem trip_pieces (k : Fin k0_t1_loop.trips) :
    ∀ p ∈ tripL_k0_t1 (F := Ideal) Variants.none c none i arg1 harg1 arg2 harg2 arg3 harg3 arg4 harg4 arg5 harg5 arg6 harg6 arg7 harg7 (X6 c arg1 harg1 arg2 harg2 arg6 x0 x1) k,
      ∀ x : p.1.shape.Idx, p.2 x = A7 x0 x1 (p.1.emb x) := by
  intro p hp
  rw [tripL_eq] at hp
  obtain rfl := List.mem_singleton.mp hp
  clear hp
  intro x
  obtain ⟨n, col, rfl⟩ : ∃ (n : Fin 1024) (col : Fin 128), x = ix2 n col := ⟨x 0, x 1, eq_ix2 x⟩
  have hk : k.val < 6 := Nat.lt_of_lt_of_le k.isLt k0_t1_abs.2.1
  have hcol := col.isLt
  have e1 : k0_off1 k 1 = 128 * k.val := by rw [k0_off1_eq k]; rfl
  have e10 : k0_off1 k 0 = 0 := by rw [k0_off1_eq k]; rfl
  have e2 : k0_off2 k 768#32 1 = 768 + 128 * k.val := (congrFun (k0_off2_eq k ⟨0, by decide⟩) 1).trans (by show 768 * 0 + 128 * k.val + 768 = _; omega)
  have e20 : k0_off2 k 768#32 0 = 0 := congrFun (k0_off2_eq k ⟨0, by decide⟩) 0
  have e3 : k0_off2 k 1536#32 1 = 1536 + 128 * k.val := (congrFun (k0_off2_eq k ⟨1, by decide⟩) 1).trans (by show 768 * 1 + 128 * k.val + 768 = _; omega)
  have e30 : k0_off2 k 1536#32 0 = 0 := congrFun (k0_off2_eq k ⟨1, by decide⟩) 0
  have e4 : k0_off3 k 1 = 128 * k.val := by rw [k0_off3_eq k]; rfl
  have e40 : k0_off3 k 0 = 0 := by rw [k0_off3_eq k]; rfl
  refine (pair_is_attn c arg1 harg1 arg2 harg2 arg6 x0 x1 k.val hk _ _ _ _ _ _ e10 e1 e20 e2 e30 e3 n col
    ⟨128 * k.val + col.val, by omega⟩ rfl).trans ?_
  exact congr2 (attn (XB x0) (WB x1)) (by show n.val = k0_off3 k 0 + 1 * n.val; rw [e40]; omega)
    (by show 128 * k.val + col.val = k0_off3 k 1 + 1 * col.val; rw [e4]; omega)

/-! ## The attention scratch after the loop, and the output block -/

/-- All the stores of the trips before `j` are restrictions of the attention features. -/
theorem pb_pieces : ∀ (j : Nat), j ≤ k0_t1_loop.trips →
    ∀ p ∈ pb_k0_t1 (F := Ideal) Variants.none c none i arg1 harg1 arg2 harg2 arg3 harg3 arg4 harg4 arg5 harg5 arg6 harg6 arg7 harg7 (X6 c arg1 harg1 arg2 harg2 arg6 x0 x1) j, ∀ x : p.1.shape.Idx, p.2 x = A7 x0 x1 (p.1.emb x)
  | 0, _ => fun p hp => absurd hp List.not_mem_nil
  | j + 1, hj => fun p hp => by
    have hj' : j < k0_t1_loop.trips := hj
    rw [show j + 1 = (⟨j, hj'⟩ : Fin k0_t1_loop.trips).val + 1 from rfl, pb_k0_t1_succ] at hp
    rcases List.mem_append.mp hp with h | h
    · exact trip_pieces c i arg1 harg1 arg2 harg2 arg3 harg3 arg4 harg4 arg5 harg5 arg6 harg6 arg7 harg7 x0 x1 ⟨j, hj'⟩ p h
    · exact pb_pieces j (Nat.le_of_lt hj') p h

/-- The load of the attention scratch after the loop reads the attention features. -/
theorem att_read (n : Fin 1024) (d : Fin 768) :
    kernelRun0_A.sl.v25 (F := Ideal) c i arg1 harg1 arg2 harg2 arg3 harg3 arg4 harg4 arg5 harg5 arg6 harg6 arg7 harg7 x0 x1 arg7.view.junk (ix2 n d) = attn (XB x0) (WB x1) n d := by
  unfold kernelRun0_A.sl.v25
  show arg7.view.read (Elt Ideal) (arg7.view.writes (Elt Ideal) arg7.view.junk (pb_k0_t1 (F := Ideal) Variants.none c none i arg1 harg1 arg2 harg2 arg3 harg3 arg4 harg4 arg5 harg5 arg6 harg6 arg7 harg7 (X6 c arg1 harg1 arg2 harg2 arg6 x0 x1) k0_t1_loop.trips))
    ((Rect.unit (s := S1024x768) ![0, 0] S1024x768.size inb_S1024x768_S1024x768_0_0).toLoadRect.idx (ix2 n d)) = _
  refine (View.read_writes_apply_of_pieces (Val := Elt Ideal) arg7.view arg7.view.junk (A7 x0 x1) _
    (pb_pieces c i arg1 harg1 arg2 harg2 arg3 harg3 arg4 harg4 arg5 harg5 arg6 harg6 arg7 harg7 x0 x1 _ (Nat.le_refl _)) _ (loop_cover_arg7 c i arg1 harg1 arg2 harg2 arg3 harg3 arg4 harg4 arg5 harg5 arg6 harg6 arg7 harg7 _ _)).trans ?_
  exact congr2 (attn (XB x0) (WB x1)) (by show 0 + 1 * n.val = n.val; omega) (by show 0 + 1 * d.val = d.val; omega)

/-- What the body leaves in its output block: the specification's `out` of its four input blocks. -/
theorem out_value (u : Fin 1) (n : Fin 1024) (e : Fin 768) :
    out0_A_4 (F := Ideal) c i arg1 harg1 arg2 harg2 arg3 harg3 arg4 harg4 arg5 harg5 arg6 harg6 arg7 harg7 x0 x1 x2 x3 (ix3 u n e)
      = out (XB x0) (WB x1) (fun e c => x2 (ix2 c e)) (fun e => x3 (ix2 (0 : Fin 1) e)) n e := by
  have hz : (![0, 0, 0] : Fin 3 → ℕ) = fun _ => 0 := funext fun a => by
    match a with
    | ⟨0, _⟩ => rfl
    | ⟨1, _⟩ => rfl
    | ⟨2, _⟩ => rfl
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  refine (congrFun (View.canon_unit_zero (S := S1x1024x768) hz _ _) _).trans ?_
  unfold kernelRun0_A.sl.r kernelRun0_A.sl.cst_19
  refine (pay1_at _ _ _ u n e).trans ?_
  unfold out
  refine congrArg₂ (· + ·) (Finset.sum_congr rfl fun d _ => congrArg₂ (· * ·) (att_read c i arg1 harg1 arg2 harg2 arg3 harg3 arg4 harg4 arg5 harg5 arg6 harg6 arg7 harg7 x0 x1 n d) ?_) ?_
  · rw [pay10_eq, harg3.readAt_unread]
    exact congrArg x2 (funext fun a => Fin.ext (by
      match a with
      | ⟨0, _⟩ => show 0 + 1 * d.val = d.val; omega
      | ⟨1, _⟩ => show 0 + 1 * e.val = e.val; omega))
  · rw [harg4.readAt_unread]
    exact congrArg x3 (funext fun a => Fin.ext (by
      match a with
      | ⟨0, _⟩ => show 0 + 1 * ((0 : Fin 1) : Nat) = ((0 : Fin 1) : Nat); omega
      | ⟨1, _⟩ => show 0 + 1 * e.val = e.val; omega))

end Cert.Attn.Body

end
-- ==== Proof.Blocks.lean ====
/-
  From the blocks to the array: the kernel's result array is the attention function of the argument arrays.

  The grid has one point per batch row. At point `t` the input window of `x` stages row `t` of `x`, the other three
  windows stage the whole (transposed) weights and the bias row — arrays the host wrote before the region: the
  transposes of the two weight matrices and the bias as a one-row matrix — and the output window writes back row `t`
  of the result. What the body leaves in its output block is the specification's `out` of its input blocks (the body's
  value), which is block `t` of the whole-array function; the eight blocks cover the array, so the array ends as that
  function.
-/
import proofs.«126867_j83665962926276_2_alg».proof.Proof.KI.Value
import proofs.«126867_j83665962926276_2_alg».proof.Proof.KernelValue
import Idealize.ShloMosaic.Lib.StableHlo.Run
import Idealize.ShloMosaic.Lib.ValueLayout

set_option maxRecDepth 16384

noncomputable section

namespace Cert.Attn.Blocks

open Cert.KernelIdeal Cert.KernelIdeal.Gen Cert.KernelIdeal.GenP Cert.KernelIdeal.ValueP
open Idealize.ShloMosaic Idealize.ShloMosaic.TcCoe Idealize.ShloMosaic.ValueIdx Idealize.ShloMosaic.StableHlo Idealize.SL.Sem
open Idealize.ShloMosaic.Pipeline (Dat)
open Cert.Attn Cert.Attn.Body

variable (m : (ℓ : Loc nD τ sig) → Buf (Elt Ideal) ℓ) (ρ : Dev nD → PrngReg)

/-! ## The arrays the host wrote before the region, read at an index -/

theorem V_wT (c : Dev nD) (d : Fin 768) (e : Fin 2304) :
    (V m c main_v1 : S768x2304.Idx → EReal) (ix2 d e) = m ((c : Thread nD τ).loc main_arg1) (ix2 e d) := by
  have h : @Eq (S768x2304.Idx → EReal) (V m c main_v1)
      (truncf (F := Ideal) .bf16 (transpose S768x2304 [1, 0] (m ((c : Thread nD τ).loc main_arg1)) transposes_S2304x768_S768x2304_1_0) bitsLt_bf16_f32) := by
    dsimp only [Gen.V, Gen.hostOps0]; after_results
  rw [h]
  exact transpose_ix2_apply (m ((c : Thread nD τ).loc main_arg1)) transposes_S2304x768_S768x2304_1_0 d e

theorem V_pT (c : Dev nD) (d : Fin 768) (e : Fin 768) :
    (V m c main_v3 : S768x768.Idx → EReal) (ix2 d e) = m ((c : Thread nD τ).loc main_arg2) (ix2 e d) := by
  have h : @Eq (S768x768.Idx → EReal) (V m c main_v3)
      (truncf (F := Ideal) .bf16 (transpose S768x768 [1, 0] (m ((c : Thread nD τ).loc main_arg2)) transposes_S768x768_S768x768_1_0) bitsLt_bf16_f32) := by
    dsimp only [Gen.V, Gen.hostOps0]; after_results
  rw [h]
  exact transpose_ix2_apply (m ((c : Thread nD τ).loc main_arg2)) transposes_S768x768_S768x768_1_0 d e

theorem V_bias (c : Dev nD) (u : Fin 1) (e : Fin 768) :
    (V m c main_v4 : S1x768.Idx → EReal) (ix2 u e) = m ((c : Thread nD τ).loc main_arg3) (ix1 e) := by
  have h : (V m c main_v4 : S1x768.Idx → EReal)
      = shapeCast S1x768 (m ((c : Thread nD τ).loc main_arg3)) shapeCasts_S768_S1x768 := by
    dsimp only [Gen.V, Gen.hostOps0]; after_results; rfl
  rw [h]
  exact shapeCast_a_1a_apply (m ((c : Thread nD τ).loc main_arg3)) shapeCasts_S768_S1x768 u e

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## What a point writes back -/

/-- The whole-array function of the argument arrays as the launch memory holds them. -/
abbrev GA (c : Dev nD) : S8x1024x768.Idx → EReal :=
  G (m ((c : Thread nD τ).loc main_arg0)) (m ((c : Thread nD τ).loc main_arg1)) (m ((c : Thread nD τ).loc main_arg2))
    (m ((c : Thread nD τ).loc main_arg3))

theorem flushed_eq (c : Dev nD) (t : Fin cfg0.N) :
    (dats m 0 c).flushed 4 t = ((cfg0.win 4).blk t).view.read (Elt Ideal) (GA m c) := by
  obtain ⟨i00, i01, i02, i10, i11, i20, i21, i30, i31, i40, i41, i42⟩ := idx_facts t
  rw [flushed4_A]
  funext j
  obtain ⟨u, n, e, rfl⟩ : ∃ (u : Fin 1) (n : Fin 1024) (e : Fin 768), j = ix3 u n e := ⟨j 0, j 1, j 2, eq_ix3 j⟩
  have hu : u.val = 0 := by omega
  show out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (ix3 u n e)
    = GA m c (((cfg0.win 4).blk t).view.emb (ix3 u n e))
  refine (out_value c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) u n e).trans ?_
  have hx : (fun (n : Fin 1024) (d : Fin 768) => iblk m c 0 t (ix3 (0 : Fin 1) n d))
      = fun n d => m ((c : Thread nD τ).loc main_arg0) (ix3 ((((cfg0.win 4).blk t).view.emb (ix3 u n e)) 0) n d) :=
    funext fun n' => funext fun d => by
      show V m c main_arg0 (((cfg0.win 0).blk t).view.emb (ix3 (0 : Fin 1) n' d)) = _
      rw [V_main_arg0]
      exact congrArg _ (funext fun a => Fin.ext (by
        match a with
        | ⟨0, _⟩ => show win0_0.index t (0 : Fin 3) * 1 + 1 * ((0 : Fin 1) : Nat) = win0_4.index t (0 : Fin 3) * 1 + 1 * u.val; omega
        | ⟨1, _⟩ => show win0_0.index t (1 : Fin 3) * 1024 + 1 * n'.val = n'.val; omega
        | ⟨2, _⟩ => show win0_0.index t (2 : Fin 3) * 768 + 1 * d.val = d.val; omega))
  have hw : (fun (e : Fin 2304) (d : Fin 768) => iblk m c 1 t (ix2 d e))
      = fun e d => m ((c : Thread nD τ).loc main_arg1) (ix2 e d) :=
    funext fun e' => funext fun d => by
      show V m c main_v1 (((cfg0.win 1).blk t).view.emb (ix2 d e')) = _
      rw [show ((cfg0.win 1).blk t).view.emb (ix2 d e') = ix2 d e' from funext fun a => Fin.ext (by
        match a with
        | ⟨0, _⟩ => show win0_1.index t (0 : Fin 2) * 768 + 1 * d.val = d.val; omega
        | ⟨1, _⟩ => show win0_1.index t (1 : Fin 2) * 2304 + 1 * e'.val = e'.val; omega)]
      exact V_wT m c d e'
  have hp : (fun (e : Fin 768) (k : Fin 768) => iblk m c 2 t (ix2 k e))
      = fun e k => m ((c : Thread nD τ).loc main_arg2) (ix2 e k) :=
    funext fun e' => funext fun k => by
      show V m c main_v3 (((cfg0.win 2).blk t).view.emb (ix2 k e')) = _
      rw [show ((cfg0.win 2).blk t).view.emb (ix2 k e') = ix2 k e' from funext fun a => Fin.ext (by
        match a with
        | ⟨0, _⟩ => show win0_2.index t (0 : Fin 2) * 768 + 1 * k.val = k.val; omega
        | ⟨1, _⟩ => show win0_2.index t (1 : Fin 2) * 768 + 1 * e'.val = e'.val; omega)]
      exact V_pT m c k e'
  have hb : (fun (e : Fin 768) => iblk m c 3 t (ix2 (0 : Fin 1) e))
      = fun e => m ((c : Thread nD τ).loc main_arg3) (ix1 e) :=
    funext fun e' => by
      show V m c main_v4 (((cfg0.win 3).blk t).view.emb (ix2 (0 : Fin 1) e')) = _
      rw [show ((cfg0.win 3).blk t).view.emb (ix2 (0 : Fin 1) e') = ix2 (0 : Fin 1) e' from funext fun a => Fin.ext (by
        match a with
        | ⟨0, _⟩ => show win0_3.index t (0 : Fin 2) * 1 + 1 * ((0 : Fin 1) : Nat) = ((0 : Fin 1) : Nat); omega
        | ⟨1, _⟩ => show win0_3.index t (1 : Fin 2) * 768 + 1 * e'.val = e'.val; omega)]
      exact V_bias m c 0 e'
  show out (fun n d => iblk m c 0 t (ix3 (0 : Fin 1) n d)) (fun e d => iblk m c 1 t (ix2 d e))
      (fun e k => iblk m c 2 t (ix2 k e)) (fun e => iblk m c 3 t (ix2 (0 : Fin 1) e)) n e = _
  rw [hx, hw, hp, hb]
  exact congr2 (out _ _ _ _) (by show n.val = win0_4.index t (1 : Fin 3) * 1024 + 1 * n.val; omega)
    (by show e.val = win0_4.index t (2 : Fin 3) * 768 + 1 * e.val; omega)

/-! ## The blocks cover the array -/

theorem mem_blk (t : Fin cfg0.N) (i : S8x1024x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v5).slice (win0_4.rect t)).set ↔ _
  rw [View.set_slice_whole, Rect.mem_set_unit]
  exact Iff.rfl

theorem cover (i : S8x1024x768.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 768 := (i 2).isLt
  have hN : cfg0.N = 8 := N_0
  obtain ⟨t, ht⟩ : ∃ t : Fin cfg0.N, t.val = (i 0).val := ⟨⟨(i 0).val, by rw [hN]; exact h0⟩, rfl⟩
  refine ⟨t, flush0_4 t, ?_⟩
  obtain ⟨-, -, -, -, -, -, -, -, -, i40, i41, i42⟩ := idx_facts t
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- The result array after the run is the attention function of the argument arrays. -/
theorem final (c : Dev nD) : (dats m 0 c).arrAt 4 cfg0.N = GA m c :=
  (dats m 0 c).arrAt_eq_of_cover 4 (GA m c) (fun t _ => flushed_eq m c t) (cover)

/-- The kernel's run: it terminates with the result array at the attention function and the arguments unchanged. -/
theorem run : θ_run defs (onTc (τ := τ) (main (F := Ideal))) ⟨m, fun _ => 0, ρ⟩ fun r => ∀ c : Dev nD,
      r.2.mem ((c : Thread nD τ).loc main_v5) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Attn.Blocks

end
-- ==== Proof.RefValue.lean ====
/-
  The reference program's result, read one operation at a time, is the attention function of the specification.

  The reference projects all tokens of all batch rows at once, regroups the 2304 projected features as
  (query / key / value) × 12 heads × 64, scales the query features by 1/8, and runs the softmax and the weighted sum
  over arrays indexed (batch, head, token, ·); then it lays the heads side by side again and applies the output
  projection. Read at an index, every regrouping is a renaming of coordinates: feature `p · 768 + h · 64 + d` of
  the projection is part `p`, head `h`, position `d`. The only arithmetic used is that the 1/8 on the query
  features may be moved onto the dot product (Spec: `sum_scale_left`), that the larger of `-∞` and a maximum
  folded from `-∞` is that maximum, and `0 + s = s`.
-/
import proofs.«126867_j83665962926276_2_alg».proof.Proof.Gen.ReferenceIdeal.Read
import proofs.«126867_j83665962926276_2_alg».proof.Proof.Spec

noncomputable section

namespace Cert.Attn.Ref

open Cert.ReferenceIdeal Cert.ReferenceIdeal.Facts₀ Cert.ReferenceIdeal.Read Idealize.ShloMosaic Idealize.ShloMosaic.ValueIdx Cert.Attn

variable (x0 : (⟨S8x1024x768, .f32⟩ : BufTy).Contents (Elt Ideal)) (x1 : (⟨S2304x768, .f32⟩ : BufTy).Contents (Elt Ideal))

/-- Batch row `b` of the input, and the stacked weights, as functions of plain coordinates. -/
abbrev X (b : Fin 8) : Fin 1024 → Fin 768 → EReal := fun n d => x0 (ix3 b n d)
abbrev W : Fin 2304 → Fin 768 → EReal := fun e d => x1 (ix2 e d)

/-! ## The regroupings are renamings of coordinates -/

theorem reshape_heads_q (b : Fin 8) (h : Fin 12) (n : Fin 1024) (d : Fin 64) :
    idx_main_v4 (ix4 b h n d) = ix5 (0 : Fin 1) b h n d := funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)
theorem reshape_heads_k (b : Fin 8) (h : Fin 12) (n : Fin 1024) (d : Fin 64) :
    idx_main_v6 (ix4 b h n d) = ix5 (0 : Fin 1) b h n d := funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)
theorem reshape_heads_v (b : Fin 8) (h : Fin 12) (n : Fin 1024) (d : Fin 64) :
    idx_main_v8 (ix4 b h n d) = ix5 (0 : Fin 1) b h n d := funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

theorem part_q (b : Fin 8) (h : Fin 12) (n : Fin 1024) (d : Fin 64) :
    idx_main_v3 (ix5 (0 : Fin 1) b h n d) = ix5 (0 : Fin 3) b h n d := funext fun a => Fin.ext (by
    match a with
    | ⟨0, _⟩ => rfl
    | ⟨1, _⟩ => rfl
    | ⟨2, _⟩ => rfl
    | ⟨3, _⟩ => rfl
    | ⟨4, _⟩ => rfl)
theorem part_k (b : Fin 8) (h : Fin 12) (n : Fin 1024) (d : Fin 64) :
    idx_main_v5 (ix5 (0 : Fin 1) b h n d) = ix5 (1 : Fin 3) b h n d := funext fun a => Fin.ext (by
    match a with
    | ⟨0, _⟩ => rfl
    | ⟨1, _⟩ => rfl
    | ⟨2, _⟩ => rfl
    | ⟨3, _⟩ => rfl
    | ⟨4, _⟩ => rfl)
theorem part_v (b : Fin 8) (h : Fin 12) (n : Fin 1024) (d : Fin 64) :
    idx_main_v7 (ix5 (0 : Fin 1) b h n d) = ix5 (2 : Fin 3) b h n d := funext fun a => Fin.ext (by
    match a with
    | ⟨0, _⟩ => rfl
    | ⟨1, _⟩ => rfl
    | ⟨2, _⟩ => rfl
    | ⟨3, _⟩ => rfl
    | ⟨4, _⟩ => rfl)

theorem transpose_parts (p : Fin 3) (b : Fin 8) (h : Fin 12) (n : Fin 1024) (d : Fin 64) :
    idx_main_v2 (ix5 p b h n d) = ix5 b n p h d := funext fun a => Fin.ext (by
    match a with
    | ⟨0, _⟩ => rfl
    | ⟨1, _⟩ => rfl
    | ⟨2, _⟩ => rfl
    | ⟨3, _⟩ => rfl
    | ⟨4, _⟩ => rfl)

theorem split_q (b : Fin 8) (h : Fin 12) (n : Fin 1024) (d : Fin 64) :
    idx_main_v1 (ix5 b n (0 : Fin 3) h d) = ix3 b n (qcol h d) := funext fun a => Fin.ext (by
    have hb := b.isLt; have hh := h.isLt; have hn := n.isLt; have hd := d.isLt
    match a with
    | ⟨0, _⟩ => show ((((b.val * 1024 + n.val) * 3 + 0) * 12 + h.val) * 64 + d.val) / 2359296 = b.val; omega
    | ⟨1, _⟩ => show ((((b.val * 1024 + n.val) * 3 + 0) * 12 + h.val) * 64 + d.val) / 2304 % 1024 = n.val; omega
    | ⟨2, _⟩ => show ((((b.val * 1024 + n.val) * 3 + 0) * 12 + h.val) * 64 + d.val) % 2304 = h.val * 64 + d.val; omega)
theorem split_k (b : Fin 8) (h : Fin 12) (n : Fin 1024) (d : Fin 64) :
    idx_main_v1 (ix5 b n (1 : Fin 3) h d) = ix3 b n (kcol h d) := funext fun a => Fin.ext (by
    have hb := b.isLt; have hh := h.isLt; have hn := n.isLt; have hd := d.isLt
    match a with
    | ⟨0, _⟩ => show ((((b.val * 1024 + n.val) * 3 + 1) * 12 + h.val) * 64 + d.val) / 2359296 = b.val; omega
    | ⟨1, _⟩ => show ((((b.val * 1024 + n.val) * 3 + 1) * 12 + h.val) * 64 + d.val) / 2304 % 1024 = n.val; omega
    | ⟨2, _⟩ => show ((((b.val * 1024 + n.val) * 3 + 1) * 12 + h.val) * 64 + d.val) % 2304 = 768 + (h.val * 64 + d.val); omega)
theorem split_v (b : Fin 8) (h : Fin 12) (n : Fin 1024) (d : Fin 64) :
    idx_main_v1 (ix5 b n (2 : Fin 3) h d) = ix3 b n (vcol h d) := funext fun a => Fin.ext (by
    have hb := b.isLt; have hh := h.isLt; have hn := n.isLt; have hd := d.isLt
    match a with
    | ⟨0, _⟩ => show ((((b.val * 1024 + n.val) * 3 + 2) * 12 + h.val) * 64 + d.val) / 2359296 = b.val; omega
    | ⟨1, _⟩ => show ((((b.val * 1024 + n.val) * 3 + 2) * 12 + h.val) * 64 + d.val) / 2304 % 1024 = n.val; omega
    | ⟨2, _⟩ => show ((((b.val * 1024 + n.val) * 3 + 2) * 12 + h.val) * 64 + d.val) % 2304 = 1536 + (h.val * 64 + d.val); omega)

/-! ## The projection and its three parts -/

theorem proj_at (b : Fin 8) (n : Fin 1024) (e : Fin 2304) :
    val_main_v0 (F := Ideal) x0 x1 (ix3 b n e) = proj (X x0 b) (W x1) n e := by
  rw [val_main_v0_apply]
  unfold proj
  refine Finset.sum_congr rfl fun k _ => ?_
  have el : lidx_main_v0 (ix3 b n e) k = ix3 b n k := funext fun a => Fin.ext (by
    match a with
    | ⟨0, _⟩ => rfl
    | ⟨1, _⟩ => rfl
    | ⟨2, _⟩ => rfl)
  have er : ridx_main_v0 (ix3 b n e) k = ix2 e k := funext fun a => Fin.ext (by
    match a with
    | ⟨0, _⟩ => rfl
    | ⟨1, _⟩ => rfl)
  rw [el, er]

theorem q_at (b : Fin 8) (h : Fin 12) (n : Fin 1024) (d : Fin 64) :
    val_main_v4 (F := Ideal) x0 x1 (ix4 b h n d) = proj (X x0 b) (W x1) n (qcol h d) := by
  rw [val_main_v4_apply, reshape_heads_q, val_main_v3_apply, part_q, val_main_v2_apply, transpose_parts, val_main_v1_apply,
    split_q, proj_at]
theorem k_at (b : Fin 8) (h : Fin 12) (n : Fin 1024) (d : Fin 64) :
    val_main_v6 (F := Ideal) x0 x1 (ix4 b h n d) = proj (X x0 b) (W x1) n (kcol h d) := by
  rw [val_main_v6_apply, reshape_heads_k, val_main_v5_apply, part_k, val_main_v2_apply, transpose_parts, val_main_v1_apply,
    split_k, proj_at]
theorem v_at (b : Fin 8) (h : Fin 12) (n : Fin 1024) (d : Fin 64) :
    val_main_v8 (F := Ideal) x0 x1 (ix4 b h n d) = proj (X x0 b) (W x1) n (vcol h d) := by
  rw [val_main_v8_apply, reshape_heads_v, val_main_v7_apply, part_v, val_main_v2_apply, transpose_parts, val_main_v1_apply,
    split_v, proj_at]

/-! ## The scores and their softmax -/

theorem score_at (b : Fin 8) (h : Fin 12) (i j : Fin 1024) :
    val_main_v11 (F := Ideal) x0 x1 (ix4 b h i j) = score (X x0 b) (W x1) h i j := by
  rw [val_main_v11_apply]
  unfold score
  rw [← sum_scale_left]
  refine Finset.sum_congr rfl fun k _ => ?_
  have el : lidx_main_v11 (ix4 b h i j) k = ix4 b h i k := funext fun a => Fin.ext (by
    match a with
    | ⟨0, _⟩ => rfl
    | ⟨1, _⟩ => rfl
    | ⟨2, _⟩ => rfl
    | ⟨3, _⟩ => rfl)
  have er : ridx_main_v11 (ix4 b h i j) k = ix4 b h j k := funext fun a => Fin.ext (by
    match a with
    | ⟨0, _⟩ => rfl
    | ⟨1, _⟩ => rfl
    | ⟨2, _⟩ => rfl
    | ⟨3, _⟩ => rfl)
  rw [el, er, val_main_v10_apply, q_at, k_at, val_main_v9_apply, val_main_cst_apply]
  rfl

theorem rowMax_at (b : Fin 8) (h : Fin 12) (i : Fin 1024) :
    val_main_v14 (F := Ideal) x0 x1 (ix3 b h i) = rowMax (X x0 b) (W x1) h i := by
  have hR : S8x12x1024x1024.Reduces [3] S8x12x1024 := by decide
  have hl : ∀ j : Fin 1024, hR.lift (ix3 b h i) j = ix4 b h i j := fun j => funext fun a => Fin.ext (by
    match a with
    | ⟨0, _⟩ => rfl
    | ⟨1, _⟩ => rfl
    | ⟨2, _⟩ => rfl
    | ⟨3, _⟩ => rfl)
  rw [val_main_v14_apply, val_main_v13_apply, val_main_cst_1_apply]
  unfold val_main_v12
  refine (congrArg (FloatOps.maximumf _) (Host.reduce_eq_fold_single FloatOps.maximumf _ _
    reducesTo_S8x12x1024x1024_S8x12x1024_d3 hR h_S_ (ix3 b h i))).trans ?_
  show max negInf ((Finset.univ : Finset (Fin 1024)).fold max negInf
    (fun j => val_main_v11 (F := Ideal) x0 x1 (hR.lift (ix3 b h i) j))) = _
  refine (max_negInf_fold (n := 1024) _).trans ?_
  unfold rowMax
  exact Finset.fold_congr (fun j _ => by rw [hl, score_at])

theorem expo_at (b : Fin 8) (h : Fin 12) (i j : Fin 1024) :
    val_main_v18 (F := Ideal) x0 x1 (ix4 b h i j) = expo (X x0 b) (W x1) h i j := by
  have e16 : idx_main_v16 (ix4 b h i j) = ix4 b h i (0 : Fin 1) := funext fun a => Fin.ext (by
    match a with
    | ⟨0, _⟩ => rfl
    | ⟨1, _⟩ => rfl
    | ⟨2, _⟩ => rfl
    | ⟨3, _⟩ => rfl)
  have e15 : idx_main_v15 (ix4 b h i (0 : Fin 1)) = ix3 b h i := funext fun a => Fin.ext (by
    match a with
    | ⟨0, _⟩ => rfl
    | ⟨1, _⟩ => rfl
    | ⟨2, _⟩ => rfl)
  rw [val_main_v18_apply, val_main_v17_apply, score_at, val_main_v16_apply, e16, val_main_v15_apply, e15, rowMax_at]
  rfl

theorem rowSum_at (b : Fin 8) (h : Fin 12) (i : Fin 1024) :
    val_main_v19 (F := Ideal) x0 x1 (ix3 b h i) = rowSum (X x0 b) (W x1) h i := by
  rw [val_main_v19_apply, val_main_cst_2_apply]
  unfold rowSum
  refine (congrArg (_ + ·) (Finset.sum_congr rfl fun k _ => ?_)).trans
    (show Ideal.ofBits .f32 0x00000000#32 + _ = _ by rw [Ideal.ofBits_zero_f32, zero_add])
  have e : idx_main_v19 (ix3 b h i) k = ix4 b h i k := funext fun a => Fin.ext (by
    match a with
    | ⟨0, _⟩ => rfl
    | ⟨1, _⟩ => rfl
    | ⟨2, _⟩ => rfl
    | ⟨3, _⟩ => rfl)
  rw [e, expo_at]

theorem prob_at (b : Fin 8) (h : Fin 12) (i j : Fin 1024) :
    val_main_v22 (F := Ideal) x0 x1 (ix4 b h i j) = prob (X x0 b) (W x1) h i j := by
  have e21 : idx_main_v21 (ix4 b h i j) = ix4 b h i (0 : Fin 1) := funext fun a => Fin.ext (by
    match a with
    | ⟨0, _⟩ => rfl
    | ⟨1, _⟩ => rfl
    | ⟨2, _⟩ => rfl
    | ⟨3, _⟩ => rfl)
  have e20 : idx_main_v20 (ix4 b h i (0 : Fin 1)) = ix3 b h i := funext fun a => Fin.ext (by
    match a with
    | ⟨0, _⟩ => rfl
    | ⟨1, _⟩ => rfl
    | ⟨2, _⟩ => rfl)
  rw [val_main_v22_apply, expo_at, val_main_v21_apply, e21, val_main_v20_apply, e20, rowSum_at]
  rfl

/-! ## The heads' outputs, side by side, and the output projection -/

theorem headOut_at (b : Fin 8) (h : Fin 12) (i : Fin 1024) (d : Fin 64) :
    val_main_v23 (F := Ideal) x0 x1 (ix4 b h i d) = headOut (X x0 b) (W x1) h i d := by
  rw [val_main_v23_apply]
  unfold headOut
  refine Finset.sum_congr rfl fun k _ => ?_
  have el : lidx_main_v23 (ix4 b h i d) k = ix4 b h i k := funext fun a => Fin.ext (by
    match a with
    | ⟨0, _⟩ => rfl
    | ⟨1, _⟩ => rfl
    | ⟨2, _⟩ => rfl
    | ⟨3, _⟩ => rfl)
  have er : ridx_main_v23 (ix4 b h i d) k = ix4 b h k d := funext fun a => Fin.ext (by
    match a with
    | ⟨0, _⟩ => rfl
    | ⟨1, _⟩ => rfl
    | ⟨2, _⟩ => rfl
    | ⟨3, _⟩ => rfl)
  rw [el, er, prob_at, v_at]

theorem attn_at (b : Fin 8) (i : Fin 1024) (c : Fin 768) :
    val_main_v25 (F := Ideal) x0 x1 (ix3 b i c) = attn (X x0 b) (W x1) i c := by
  have e25 : idx_main_v25 (ix3 b i c) = ix4 b i (⟨c.val / 64, by omega⟩ : Fin 12) (⟨c.val % 64, by omega⟩ : Fin 64) :=
    funext fun a => Fin.ext (by
    have hb := b.isLt; have hi := i.isLt; have hc := c.isLt
    match a with
    | ⟨0, _⟩ => show ((b.val * 1024 + i.val) * 768 + c.val) / 786432 = b.val; omega
    | ⟨1, _⟩ => show ((b.val * 1024 + i.val) * 768 + c.val) / 768 % 1024 = i.val; omega
    | ⟨2, _⟩ => show ((b.val * 1024 + i.val) * 768 + c.val) / 64 % 12 = c.val / 64; omega
    | ⟨3, _⟩ => show ((b.val * 1024 + i.val) * 768 + c.val) % 64 = c.val % 64; omega)
  have e24 : idx_main_v24 (ix4 b i (⟨c.val / 64, by omega⟩ : Fin 12) (⟨c.val % 64, by omega⟩ : Fin 64))
      = ix4 b (⟨c.val / 64, by omega⟩ : Fin 12) i (⟨c.val % 64, by omega⟩ : Fin 64) := funext fun a => Fin.ext (by
    match a with
    | ⟨0, _⟩ => rfl
    | ⟨1, _⟩ => rfl
    | ⟨2, _⟩ => rfl
    | ⟨3, _⟩ => rfl)
  rw [val_main_v25_apply, e25, val_main_v24_apply, e24, headOut_at]
  rfl

/-- The reference's result is the specification's function of the four argument arrays. -/
theorem result_eq (x2 : (⟨S768x768, .f32⟩ : BufTy).Contents (Elt Ideal)) (x3 : (⟨S768, .f32⟩ : BufTy).Contents (Elt Ideal)) :
    val_main_v29 (F := Ideal) x0 x1 x2 x3 = G x0 x1 x2 x3 := by
  funext y
  obtain ⟨b, i, e, rfl⟩ : ∃ (b : Fin 8) (i : Fin 1024) (e : Fin 768), y = ix3 b i e := ⟨y 0, y 1, y 2, eq_ix3 y⟩
  have e28 : idx_main_v28 (ix3 b i e) = ix3 (0 : Fin 1) (0 : Fin 1) e := funext fun a => Fin.ext (by
    match a with
    | ⟨0, _⟩ => rfl
    | ⟨1, _⟩ => rfl
    | ⟨2, _⟩ => rfl)
  have e27 : idx_main_v27 (ix3 (0 : Fin 1) (0 : Fin 1) e) = ix1 e := funext fun a => Fin.ext (by
    match a with
    | ⟨0, _⟩ => rfl)
  rw [val_main_v29_apply, val_main_v28_apply, e28, val_main_v27_apply, e27, val_main_v26_apply]
  show (∑ k : Fin 768, _) + x3 (ix1 e) = out (X x0 b) (W x1) (fun e c => x2 (ix2 e c)) (fun e => x3 (ix1 e)) i e
  unfold out
  refine congrArg (· + x3 (ix1 e)) (Finset.sum_congr rfl fun k _ => ?_)
  have el : lidx_main_v26 (ix3 b i e) k = ix3 b i k := funext fun a => Fin.ext (by
    match a with
    | ⟨0, _⟩ => rfl
    | ⟨1, _⟩ => rfl
    | ⟨2, _⟩ => rfl)
  have er : ridx_main_v26 (ix3 b i e) k = ix2 e k := funext fun a => Fin.ext (by
    match a with
    | ⟨0, _⟩ => rfl
    | ⟨1, _⟩ => rfl)
  rw [el, er, attn_at]

end Cert.Attn.Ref

end
-- ==== Proof.lean ====
/-
  The fused multi-head self-attention kernel against its jnp reference, on the extended reals.

  Both programs compute, for each of the 8 batch rows, `softmax(Q Kᵀ / 8) V` per head over the projections
  `x · qkv_wᵀ` (12 heads of 64 features), lay the heads side by side and apply `· proj_wᵀ + proj_b`. The kernel does it
  one batch row per grid point: it transposes the weights on the host, projects the row block in three 768-column
  chunks into a scratch, loops over the six pairs of heads (two heads per 128 columns), writes the pair's outputs into a
  second scratch and projects that. The reference does it with batched einsums over arrays regrouped as
  (batch, head, token, feature). At the ideal values a matrix product is the sum of products whatever its tiling, a
  change of float format is the identity, and `exp`, the division and the row maximum are one function on both
  sides; the one difference in the arithmetic is where the scale 1/8 sits — on the scores in the kernel, on the query
  features in the reference — and a nonnegative real factor may be moved across a finite sum of extended reals. So both
  result arrays are ONE function `Cert.Attn.G` of the four argument arrays (Proof/Spec.lean): the kernel's by reading
  its body's stores index by index and its eight output blocks as the array (Proof/KernelPay.lean, KernelValue.lean,
  Blocks.lean), the reference's by reading its operations one at a time (Proof/RefValue.lean). No finiteness of the
  inputs is used. The word-level kernel differs from its idealization by no rewrite, so `preserves` is `True`.
-/
import proofs.«126867_j83665962926276_2_alg».proof.Defs
import proofs.«126867_j83665962926276_2_alg».proof.Proof.Gen.Kernel
import proofs.«126867_j83665962926276_2_alg».proof.Proof.Gen.KernelIdeal
import proofs.«126867_j83665962926276_2_alg».proof.Proof.Gen.ReferenceIdeal
import proofs.«126867_j83665962926276_2_alg».proof.Proof.Gen.Pre_finite_inputs
import proofs.«126867_j83665962926276_2_alg».proof.Proof.Gen.ReferenceIdeal.Run
import proofs.«126867_j83665962926276_2_alg».proof.Proof.Gen.ReferenceIdeal.Read
import proofs.«126867_j83665962926276_2_alg».proof.Proof.K.Frame
import proofs.«126867_j83665962926276_2_alg».proof.Proof.KI.Frame
import proofs.«126867_j83665962926276_2_alg».proof.Proof.Blocks
import proofs.«126867_j83665962926276_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Run from memories that agree on the arguments, both programs end with the result array at the attention function
    `Cert.Attn.G` of those arguments. -/
theorem algebraic : Cert.algebraic_KernelIdeal_ReferenceIdeal := by
  intro m ρ m' ρ' _ hagree
  refine ⟨fun c => Cert.Attn.Blocks.GA m c, Cert.Attn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Attn.Ref.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
